-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S524288x2 : Shape := ⟨2, ![524288, 2]⟩
abbrev S32768 : Shape := ⟨1, ![32768]⟩
abbrev S8 : Shape := ⟨1, ![8]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg7 : FVec F S256 .f32) (main_arg8 : FVec F S256x256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32768x128 .f32) (main_arg1 : IVec S524288x2 32) (main_arg2 : IVec S32768 32) (main_arg3 : IVec S8 32) (main_arg4 : FVec F S256x128 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_v13 main_v16
-- ==== Kernel.lean ====
abbrev S32768x128 : Shape := ⟨2, ![32768, 128]⟩
abbrev S524288x2 : Shape := ⟨2, ![524288, 2]⟩
abbrev S32768 : Shape := ⟨1, ![32768]⟩
abbrev S8 : Shape := ⟨1, ![8]⟩
abbrev S256x128 : Shape := ⟨2, ![256, 128]⟩
abbrev S256 : Shape := ⟨1, ![256]⟩
abbrev S256x256 : Shape := ⟨2, ![256, 256]⟩
abbrev S524288x1 : Shape := ⟨2, ![524288, 1]⟩
abbrev S524288 : Shape := ⟨1, ![524288]⟩
abbrev S_ : Shape := ⟨0, ![]⟩
abbrev S524288x128 : Shape := ⟨2, ![524288, 128]⟩
abbrev S32768x1 : Shape := ⟨2, ![32768, 1]⟩
abbrev S1x256 : Shape := ⟨2, ![1, 256]⟩
abbrev S32768x256 : Shape := ⟨2, ![32768, 256]⟩
abbrev S2048x128 : Shape := ⟨2, ![2048, 128]⟩
abbrev S2048x256 : Shape := ⟨2, ![2048, 256]⟩
abbrev S524288x256 : Shape := ⟨2, ![524288, 256]⟩
abbrev S4096x256 : Shape := ⟨2, ![4096, 256]⟩
abbrev S4096 : Shape := ⟨1, ![4096]⟩
abbrev S4096x1 : Shape := ⟨2, ![4096, 1]⟩
abbrev S8x512x256 : Shape := ⟨3, ![8, 512, 256]⟩
abbrev S8x1024x256 : Shape := ⟨3, ![8, 1024, 256]⟩
abbrev S8x1 : Shape := ⟨2, ![8, 1]⟩
abbrev S8x2 : Shape := ⟨2, ![8, 2]⟩
abbrev S8x256 : Shape := ⟨2, ![8, 256]⟩

abbrev nBuf : Space → Nat
  | .hbm => 160
  | .vmem => 18
  | .smem => 0
  | _ => 0

abbrev hbmTy0_0 (i : Nat) : BufTy := match i % 128 with
  | 0 => ⟨S32768x128, .f32⟩
  | 1 => ⟨S524288x2, .i32⟩
  | 2 => ⟨S32768, .i32⟩
  | 3 => ⟨S8, .i32⟩
  | 4 => ⟨S256x128, .f32⟩
  | 5 => ⟨S256, .f32⟩
  | 6 => ⟨S256x256, .f32⟩
  | 7 => ⟨S256, .f32⟩
  | 8 => ⟨S256x256, .f32⟩
  | 9 => ⟨S256, .f32⟩
  | 10 => ⟨S524288x1, .i32⟩
  | 11 => ⟨S524288, .i32⟩
  | 12 => ⟨S524288x1, .i32⟩
  | 13 => ⟨S524288, .i32⟩
  | 14 => ⟨S_, .f32⟩
  | 15 => ⟨S524288, .f32⟩
  | 16 => ⟨S_, .f32⟩
  | 17 => ⟨S32768, .f32⟩
  | 18 => ⟨S524288x1, .i32⟩
  | 19 => ⟨S32768, .f32⟩
  | 20 => ⟨S_, .f32⟩
  | 21 => ⟨S32768, .f32⟩
  | 22 => ⟨S32768, .f32⟩
  | 23 => ⟨S_, .f32⟩
  | 24 => ⟨S32768, .f32⟩
  | 25 => ⟨S524288x1, .i32⟩
  | 26 => ⟨S32768, .f32⟩
  | 27 => ⟨S_, .f32⟩
  | 28 => ⟨S32768, .f32⟩
  | 29 => ⟨S32768, .f32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S524288, .f32⟩
  | 39 => ⟨S_, .i32⟩
  | 40 => ⟨S524288, .i32⟩
  | 41 => ⟨S524288, .i1⟩
  | 42 => ⟨S_, .i32⟩
  | 43 => ⟨S524288, .i32⟩
  | 44 => ⟨S524288, .i32⟩
  | 45 => ⟨S524288, .i32⟩
  | 46 => ⟨S524288x1, .i32⟩
  | 47 => ⟨S524288, .f32⟩
  | 48 => ⟨S524288, .f32⟩
  | 49 => ⟨S524288, .f32⟩
  | 50 => ⟨S_, .f32⟩
  | 51 => ⟨S524288, .f32⟩
  | 52 => ⟨S524288, .f32⟩
  | 53 => ⟨S32768, .f32⟩
  | 54 => ⟨S32768, .f32⟩
  | 55 => ⟨S_, .f32⟩
  | 56 => ⟨S32768, .f32⟩
  | 57 => ⟨S32768, .f32⟩
  | 58 => ⟨S_, .i32⟩
  | 59 => ⟨S524288, .i32⟩
  | 60 => ⟨S524288, .i1⟩
  | 61 => ⟨S_, .i32⟩
  | 62 => ⟨S524288, .i32⟩
  | 63 => ⟨S524288, .i32⟩
  | 64 => ⟨S524288, .i32⟩
  | 65 => ⟨S524288x1, .i32⟩
  | 66 => ⟨S524288x128, .f32⟩
  | 67 => ⟨S524288x1, .f32⟩
  | 68 => ⟨S524288x128, .f32⟩
  | 69 => ⟨S524288x128, .f32⟩
  | 70 => ⟨S_, .f32⟩
  | 71 => ⟨S32768x128, .f32⟩
  | 72 => ⟨S524288x1, .i32⟩
  | 73 => ⟨S32768x128, .f32⟩
  | 74 => ⟨S32768x1, .f32⟩
  | 75 => ⟨S32768x128, .f32⟩
  | 76 => ⟨S32768x128, .f32⟩
  | 77 => ⟨S32768x128, .f32⟩
  | 78 => ⟨S1x256, .f32⟩
  | 79 => ⟨S32768x256, .f32⟩
  | 80 => ⟨S_, .i32⟩
  | 81 => ⟨S524288, .i32⟩
  | 82 => ⟨S524288, .i1⟩
  | 83 => ⟨S_, .i32⟩
  | 84 => ⟨S524288, .i32⟩
  | 85 => ⟨S524288, .i32⟩
  | 86 => ⟨S524288, .i32⟩
  | 87 => ⟨S524288x1, .i32⟩
  | 88 => ⟨S524288x256, .f32⟩
  | 89 => ⟨S524288x1, .f32⟩
  | 90 => ⟨S524288x256, .f32⟩
  | 91 => ⟨S524288x256, .f32⟩
  | 92 => ⟨S_, .f32⟩
  | 93 => ⟨S32768x256, .f32⟩
  | 94 => ⟨S524288x1, .i32⟩
  | 95 => ⟨S32768x256, .f32⟩
  | 96 => ⟨S32768x1, .f32⟩
  | 97 => ⟨S32768x256, .f32⟩
  | 98 => ⟨S32768x256, .f32⟩
  | 99 => ⟨S32768x256, .f32⟩
  | 100 => ⟨S1x256, .f32⟩
  | 101 => ⟨S32768x256, .f32⟩
  | 102 => ⟨S_, .i32⟩
  | 103 => ⟨S524288, .i32⟩
  | 104 => ⟨S524288, .i1⟩
  | 105 => ⟨S_, .i32⟩
  | 106 => ⟨S524288, .i32⟩
  | 107 => ⟨S524288, .i32⟩
  | 108 => ⟨S524288, .i32⟩
  | 109 => ⟨S524288x1, .i32⟩
  | 110 => ⟨S524288x256, .f32⟩
  | 111 => ⟨S524288x1, .f32⟩
  | 112 => ⟨S524288x256, .f32⟩
  | 113 => ⟨S524288x256, .f32⟩
  | 114 => ⟨S_, .f32⟩
  | 115 => ⟨S32768x256, .f32⟩
  | 116 => ⟨S524288x1, .i32⟩
  | 117 => ⟨S32768x256, .f32⟩
  | 118 => ⟨S32768x1, .f32⟩
  | 119 => ⟨S32768x256, .f32⟩
  | 120 => ⟨S32768x256, .f32⟩
  | 121 => ⟨S32768x256, .f32⟩
  | 122 => ⟨S1x256, .f32⟩
  | 123 => ⟨S32768x256, .f32⟩
  | 124 => ⟨S_, .f32⟩
  | 125 => ⟨S4096x256, .f32⟩
  | 126 => ⟨S32768x1, .i32⟩
  | 127 => ⟨S4096x256, .f32⟩
  | _ => ⟨S32768x128, .f32⟩

abbrev hbmTy0_1 (i : Nat) : BufTy := match i % 128 with
  | 0 => ⟨S_, .f32⟩
  | 1 => ⟨S32768, .f32⟩
  | 2 => ⟨S_, .f32⟩
  | 3 => ⟨S4096, .f32⟩
  | 4 => ⟨S32768x1, .i32⟩
  | 5 => ⟨S4096, .f32⟩
  | 6 => ⟨S4096x1, .f32⟩
  | 7 => ⟨S4096x256, .f32⟩
  | 8 => ⟨S4096x256, .f32⟩
  | 9 => ⟨S8x512x256, .f32⟩
  | 10 => ⟨S_, .i32⟩
  | 11 => ⟨S_, .f32⟩
  | 12 => ⟨S8x1024x256, .f32⟩
  | 13 => ⟨S8, .i32⟩
  | 14 => ⟨S_, .i32⟩
  | 15 => ⟨S8, .i32⟩
  | 16 => ⟨S8, .i1⟩
  | 17 => ⟨S_, .i32⟩
  | 18 => ⟨S8, .i32⟩
  | 19 => ⟨S8, .i32⟩
  | 20 => ⟨S8, .i32⟩
  | 21 => ⟨S_, .i32⟩
  | 22 => ⟨S8, .i32⟩
  | 23 => ⟨S8, .i1⟩
  | 24 => ⟨S_, .i32⟩
  | 25 => ⟨S8, .i32⟩
  | 26 => ⟨S8, .i32⟩
  | 27 => ⟨S8, .i32⟩
  | 28 => ⟨S8x1, .i32⟩
  | 29 => ⟨S8x1, .i32⟩
  | 30 => ⟨S8x2, .i32⟩
  | 31 => ⟨S8x256, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S256x128, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S256x256, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_15 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_19 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_c_21 : Ref sig .tc := ⟨.hbm, 138, rfl⟩
abbrev main_call0_v0 : Ref sig .tc := ⟨.hbm, 139, rfl⟩
abbrev main_v105 : Ref sig .tc := ⟨.hbm, 140, rfl⟩
abbrev main_v106 : Ref sig .tc := ⟨.hbm, 141, rfl⟩
abbrev main_c_22 : Ref sig .tc := ⟨.hbm, 142, rfl⟩
abbrev main_v107 : Ref sig .tc := ⟨.hbm, 143, rfl⟩
abbrev main_v108 : Ref sig .tc := ⟨.hbm, 144, rfl⟩
abbrev main_c_23 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_24 : Ref sig .tc := ⟨.hbm, 149, rfl⟩
abbrev main_v112 : Ref sig .tc := ⟨.hbm, 150, rfl⟩
abbrev main_v113 : Ref sig .tc := ⟨.hbm, 151, rfl⟩
abbrev main_c_25 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S524288x2_S524288x1_0_0 : S524288x2.Slices ![0, 0] S524288x1
  shapeCasts_S524288x1_S524288 : S524288x1.ShapeCasts S524288
  slices_S524288x2_S524288x1_0_1 : S524288x2.Slices ![0, 1] S524288x1
  bcast_S_S524288 : S_.BroadcastsInDim S524288 (![] : Fin 0 → Fin S524288.rank)
  bcast_S_S32768 : S_.BroadcastsInDim S32768 (![] : Fin 0 → Fin S32768.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S32768x128 : S_.BroadcastsInDim S32768x128 (![] : Fin 0 → Fin S32768x128.rank)
  bcast_S32768_S32768x1_0 : S32768.BroadcastsInDim S32768x1 (![0] : Fin 1 → Fin S32768x1.rank)
  bcast_S32768x1_S32768x128_0_1 : S32768x1.BroadcastsInDim S32768x128 (![0, 1] : Fin 2 → Fin S32768x128.rank)
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S524288x1_S524288x256_0_1 : S524288x1.BroadcastsInDim S524288x256 (![0, 1] : Fin 2 → Fin S524288x256.rank)
  bcast_S_S32768x256 : S_.BroadcastsInDim S32768x256 (![] : Fin 0 → Fin S32768x256.rank)
  bcast_S32768x1_S32768x256_0_1 : S32768x1.BroadcastsInDim S32768x256 (![0, 1] : Fin 2 → Fin S32768x256.rank)
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  shapeCasts_S4096x256_S8x512x256 : S4096x256.ShapeCasts S8x512x256
  pads_S8x512x256_S8x1024x256_000_05120_000 : S8x512x256.Pads (![0, 0, 0] : Fin 3 → Nat) ![0, 512, 0] ![0, 0, 0] S8x1024x256
  h_S_ : 0 < S_.numel
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  scatter_S32768_S524288x1_S524288_n_0_0_1_wf : ScatterDims.WF S32768 S524288x1 S524288 [] [0] [0] 1
  gather_S32768_S524288x1_S524288_n_0_n_n_0_1_1_wf : GatherDims.WF S32768 S524288x1 S524288 [] [0] [] [0] [] 1 ![1]
  gather_S32768x128_S524288x1_S524288x128_1_0_n_n_0_1_1128_wf : GatherDims.WF S32768x128 S524288x1 S524288x128 [1] [0] [] [0] [] 1 ![1, 128]
  scatter_S32768x128_S524288x1_S524288x128_1_0_0_1_wf : ScatterDims.WF S32768x128 S524288x1 S524288x128 [1] [0] [0] 1
  dot_S2048x128_S256x128_S2048x256_1_1_0_0_n_n_wf : DotDims.WF S2048x128 S256x128 S2048x256 [1] [1] [0] [0] [] []
  gather_S32768x256_S524288x1_S524288x256_1_0_n_n_0_1_1256_wf : GatherDims.WF S32768x256 S524288x1 S524288x256 [1] [0] [] [0] [] 1 ![1, 256]
  scatter_S32768x256_S524288x1_S524288x256_1_0_0_1_wf : ScatterDims.WF S32768x256 S524288x1 S524288x256 [1] [0] [0] 1
  dot_S2048x256_S256x256_S2048x256_1_1_0_0_n_n_wf : DotDims.WF S2048x256 S256x256 S2048x256 [1] [1] [0] [0] [] []
  scatter_S4096x256_S32768x1_S32768x256_1_0_0_1_wf : ScatterDims.WF S4096x256 S32768x1 S32768x256 [1] [0] [0] 1
  scatter_S4096_S32768x1_S32768_n_0_0_1_wf : ScatterDims.WF S4096 S32768x1 S32768 [] [0] [0] 1
  gather_S8x512x256_S8x2_S8x256_1_01_n_n_01_1_11256_wf : GatherDims.WF S8x512x256 S8x2 S8x256 [1] [0, 1] [] [0, 1] [] 1 ![1, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x128.size a
  hwx0_0 : ∀ i : grid0.Coords, EltTy.bits .f32 = 32 ∨ (Rect.block (s := S32768x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S32768x256.size a
  hwx0_3 : ∀ i : grid0.Coords, EltTy.bits .f32 = 32 ∨ (Rect.block (s := S32768x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S32768x256.size a
  hwx1_0 : ∀ i : grid1.Coords, EltTy.bits .f32 = 32 ∨ (Rect.block (s := S32768x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S32768x256.size a
  hwx1_3 : ∀ i : grid1.Coords, EltTy.bits .f32 = 32 ∨ (Rect.block (s := S32768x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S32768x256.size a
  hwx2_0 : ∀ i : grid2.Coords, EltTy.bits .f32 = 32 ∨ (Rect.block (s := S32768x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S32768x256.size a
  hwx2_3 : ∀ i : grid2.Coords, EltTy.bits .f32 = 32 ∨ (Rect.block (s := S32768x256) S2048x256.size (cc2_transform_3 i) (hinb2_3 i)).WholeWords (EltTy.packing .f32)

variable [Facts₀]

def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def gather_S32768_S524288x1_S524288_n_0_n_n_0_1_1 : GatherDims S32768 S524288x1 S524288 where
  offsetDims := []
  collapsedSliceDims := [0]
  operandBatchingDims := []
  startIndicesBatchingDims := []
  startIndexMap := [0]
  indexVectorDim := 1
  sliceSizes := ![1]
  wf := gather_S32768_S524288x1_S524288_n_0_n_n_0_1_1_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def gather_S32768x256_S524288x1_S524288x256_1_0_n_n_0_1_1256 : GatherDims S32768x256 S524288x1 S524288x256 where
  offsetDims := [1]
  collapsedSliceDims := [0]
  operandBatchingDims := []
  startIndicesBatchingDims := []
  startIndexMap := [0]
  indexVectorDim := 1
  sliceSizes := ![1, 256]
  wf := gather_S32768x256_S524288x1_S524288x256_1_0_n_n_0_1_1256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def scatter_S4096x256_S32768x1_S32768x256_1_0_0_1 : ScatterDims S4096x256 S32768x1 S32768x256 where
  updateWindowDims := [1]
  insertedWindowDims := [0]
  scatterDimsToOperandDims := [0]
  indexVectorDim := 1
  wf := scatter_S4096x256_S32768x1_S32768x256_1_0_0_1_wf
def scatter_S4096_S32768x1_S32768_n_0_0_1 : ScatterDims S4096 S32768x1 S32768 where
  updateWindowDims := []
  insertedWindowDims := [0]
  scatterDimsToOperandDims := [0]
  indexVectorDim := 1
  wf := scatter_S4096_S32768x1_S32768_n_0_0_1_wf
def gather_S8x512x256_S8x2_S8x256_1_01_n_n_01_1_11256 : GatherDims S8x512x256 S8x2 S8x256 where
  offsetDims := [1]
  collapsedSliceDims := [0, 1]
  operandBatchingDims := []
  startIndicesBatchingDims := []
  startIndexMap := [0, 1]
  indexVectorDim := 1
  sliceSizes := ![1, 1, 256]
  wf := gather_S8x512x256_S8x2_S8x256_1_01_n_n_01_1_11256_wf

abbrev win0_0 : Pipeline.Window sig grid0 :=
  Pipeline.Window.ofSpec (Memref.whole main_v53) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v72) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v73) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v74) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v91) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v93) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32768x128 : Shape := ⟨2, ![32768, 128]⟩
abbrev S524288x2 : Shape := ⟨2, ![524288, 2]⟩
abbrev S32768 : Shape := ⟨1, ![32768]⟩
abbrev S8 : Shape := ⟨1, ![8]⟩
abbrev S256x128 : Shape := ⟨2, ![256, 128]⟩
abbrev S256 : Shape := ⟨1, ![256]⟩
abbrev S256x256 : Shape := ⟨2, ![256, 256]⟩
abbrev S524288x1 : Shape := ⟨2, ![524288, 1]⟩
abbrev S524288 : Shape := ⟨1, ![524288]⟩
abbrev S_ : Shape := ⟨0, ![]⟩
abbrev S524288x128 : Shape := ⟨2, ![524288, 128]⟩
abbrev S32768x1 : Shape := ⟨2, ![32768, 1]⟩
abbrev S128x256 : Shape := ⟨2, ![128, 256]⟩
abbrev S32768x256 : Shape := ⟨2, ![32768, 256]⟩
abbrev S1x256 : Shape := ⟨2, ![1, 256]⟩
abbrev S524288x256 : Shape := ⟨2, ![524288, 256]⟩
abbrev S4096x256 : Shape := ⟨2, ![4096, 256]⟩
abbrev S4096 : Shape := ⟨1, ![4096]⟩
abbrev S4096x1 : Shape := ⟨2, ![4096, 1]⟩
abbrev S8x512x256 : Shape := ⟨3, ![8, 512, 256]⟩
abbrev S8x1024x256 : Shape := ⟨3, ![8, 1024, 256]⟩
abbrev S8x1 : Shape := ⟨2, ![8, 1]⟩
abbrev S8x2 : Shape := ⟨2, ![8, 2]⟩
abbrev S8x256 : Shape := ⟨2, ![8, 256]⟩

abbrev nBuf : Space → Nat
  | .hbm => 178
  | .vmem => 0
  | .smem => 0
  | _ => 0

abbrev hbmTy0_0 (i : Nat) : BufTy := match i % 128 with
  | 0 => ⟨S32768x128, .f32⟩
  | 1 => ⟨S524288x2, .i32⟩
  | 2 => ⟨S32768, .i32⟩
  | 3 => ⟨S8, .i32⟩
  | 4 => ⟨S256x128, .f32⟩
  | 5 => ⟨S256, .f32⟩
  | 6 => ⟨S256x256, .f32⟩
  | 7 => ⟨S256, .f32⟩
  | 8 => ⟨S256x256, .f32⟩
  | 9 => ⟨S256, .f32⟩
  | 10 => ⟨S524288x1, .i32⟩
  | 11 => ⟨S524288, .i32⟩
  | 12 => ⟨S524288x1, .i32⟩
  | 13 => ⟨S524288, .i32⟩
  | 14 => ⟨S_, .f32⟩
  | 15 => ⟨S524288, .f32⟩
  | 16 => ⟨S_, .f32⟩
  | 17 => ⟨S32768, .f32⟩
  | 18 => ⟨S524288x1, .i32⟩
  | 19 => ⟨S32768, .f32⟩
  | 20 => ⟨S_, .f32⟩
  | 21 => ⟨S32768, .f32⟩
  | 22 => ⟨S32768, .f32⟩
  | 23 => ⟨S_, .f32⟩
  | 24 => ⟨S32768, .f32⟩
  | 25 => ⟨S524288x1, .i32⟩
  | 26 => ⟨S32768, .f32⟩
  | 27 => ⟨S_, .f32⟩
  | 28 => ⟨S32768, .f32⟩
  | 29 => ⟨S32768, .f32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S524288, .f32⟩
  | 39 => ⟨S_, .i32⟩
  | 40 => ⟨S524288, .i32⟩
  | 41 => ⟨S524288, .i1⟩
  | 42 => ⟨S_, .i32⟩
  | 43 => ⟨S524288, .i32⟩
  | 44 => ⟨S524288, .i32⟩
  | 45 => ⟨S524288, .i32⟩
  | 46 => ⟨S524288x1, .i32⟩
  | 47 => ⟨S524288, .f32⟩
  | 48 => ⟨S524288, .f32⟩
  | 49 => ⟨S524288, .f32⟩
  | 50 => ⟨S_, .f32⟩
  | 51 => ⟨S524288, .f32⟩
  | 52 => ⟨S524288, .f32⟩
  | 53 => ⟨S32768, .f32⟩
  | 54 => ⟨S32768, .f32⟩
  | 55 => ⟨S_, .f32⟩
  | 56 => ⟨S32768, .f32⟩
  | 57 => ⟨S32768, .f32⟩
  | 58 => ⟨S_, .i32⟩
  | 59 => ⟨S524288, .i32⟩
  | 60 => ⟨S524288, .i1⟩
  | 61 => ⟨S_, .i32⟩
  | 62 => ⟨S524288, .i32⟩
  | 63 => ⟨S524288, .i32⟩
  | 64 => ⟨S524288, .i32⟩
  | 65 => ⟨S524288x1, .i32⟩
  | 66 => ⟨S524288x128, .f32⟩
  | 67 => ⟨S524288x1, .f32⟩
  | 68 => ⟨S524288x128, .f32⟩
  | 69 => ⟨S524288x128, .f32⟩
  | 70 => ⟨S_, .f32⟩
  | 71 => ⟨S32768x128, .f32⟩
  | 72 => ⟨S524288x1, .i32⟩
  | 73 => ⟨S32768x128, .f32⟩
  | 74 => ⟨S32768x1, .f32⟩
  | 75 => ⟨S32768x128, .f32⟩
  | 76 => ⟨S32768x128, .f32⟩
  | 77 => ⟨S32768x128, .f32⟩
  | 78 => ⟨S128x256, .f32⟩
  | 79 => ⟨S32768x256, .f32⟩
  | 80 => ⟨S1x256, .f32⟩
  | 81 => ⟨S32768x256, .f32⟩
  | 82 => ⟨S32768x256, .f32⟩
  | 83 => ⟨S_, .f32⟩
  | 84 => ⟨S32768x256, .f32⟩
  | 85 => ⟨S32768x256, .f32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S524288x1, .i32⟩
  | 94 => ⟨S524288x256, .f32⟩
  | 95 => ⟨S524288x1, .f32⟩
  | 96 => ⟨S524288x256, .f32⟩
  | 97 => ⟨S524288x256, .f32⟩
  | 98 => ⟨S_, .f32⟩
  | 99 => ⟨S32768x256, .f32⟩
  | 100 => ⟨S524288x1, .i32⟩
  | 101 => ⟨S32768x256, .f32⟩
  | 102 => ⟨S32768x1, .f32⟩
  | 103 => ⟨S32768x256, .f32⟩
  | 104 => ⟨S32768x256, .f32⟩
  | 105 => ⟨S32768x256, .f32⟩
  | 106 => ⟨S256x256, .f32⟩
  | 107 => ⟨S32768x256, .f32⟩
  | 108 => ⟨S1x256, .f32⟩
  | 109 => ⟨S32768x256, .f32⟩
  | 110 => ⟨S32768x256, .f32⟩
  | 111 => ⟨S_, .f32⟩
  | 112 => ⟨S32768x256, .f32⟩
  | 113 => ⟨S32768x256, .f32⟩
  | 114 => ⟨S_, .i32⟩
  | 115 => ⟨S524288, .i32⟩
  | 116 => ⟨S524288, .i1⟩
  | 117 => ⟨S_, .i32⟩
  | 118 => ⟨S524288, .i32⟩
  | 119 => ⟨S524288, .i32⟩
  | 120 => ⟨S524288, .i32⟩
  | 121 => ⟨S524288x1, .i32⟩
  | 122 => ⟨S524288x256, .f32⟩
  | 123 => ⟨S524288x1, .f32⟩
  | 124 => ⟨S524288x256, .f32⟩
  | 125 => ⟨S524288x256, .f32⟩
  | 126 => ⟨S_, .f32⟩
  | 127 => ⟨S32768x256, .f32⟩
  | _ => ⟨S32768x128, .f32⟩

abbrev hbmTy0_1 (i : Nat) : BufTy := match i % 128 with
  | 0 => ⟨S524288x1, .i32⟩
  | 1 => ⟨S32768x256, .f32⟩
  | 2 => ⟨S32768x1, .f32⟩
  | 3 => ⟨S32768x256, .f32⟩
  | 4 => ⟨S32768x256, .f32⟩
  | 5 => ⟨S32768x256, .f32⟩
  | 6 => ⟨S256x256, .f32⟩
  | 7 => ⟨S32768x256, .f32⟩
  | 8 => ⟨S1x256, .f32⟩
  | 9 => ⟨S32768x256, .f32⟩
  | 10 => ⟨S32768x256, .f32⟩
  | 11 => ⟨S_, .f32⟩
  | 12 => ⟨S32768x256, .f32⟩
  | 13 => ⟨S32768x256, .f32⟩
  | 14 => ⟨S_, .f32⟩
  | 15 => ⟨S4096x256, .f32⟩
  | 16 => ⟨S32768x1, .i32⟩
  | 17 => ⟨S4096x256, .f32⟩
  | 18 => ⟨S_, .f32⟩
  | 19 => ⟨S32768, .f32⟩
  | 20 => ⟨S_, .f32⟩
  | 21 => ⟨S4096, .f32⟩
  | 22 => ⟨S32768x1, .i32⟩
  | 23 => ⟨S4096, .f32⟩
  | 24 => ⟨S4096x1, .f32⟩
  | 25 => ⟨S4096x256, .f32⟩
  | 26 => ⟨S4096x256, .f32⟩
  | 27 => ⟨S8x512x256, .f32⟩
  | 28 => ⟨S_, .i32⟩
  | 29 => ⟨S_, .f32⟩
  | 30 => ⟨S8x1024x256, .f32⟩
  | 31 => ⟨S8, .i32⟩
  | 32 => ⟨S_, .i32⟩
  | 33 => ⟨S8, .i32⟩
  | 34 => ⟨S8, .i1⟩
  | 35 => ⟨S_, .i32⟩
  | 36 => ⟨S8, .i32⟩
  | 37 => ⟨S8, .i32⟩
  | 38 => ⟨S8, .i32⟩
  | 39 => ⟨S_, .i32⟩
  | 40 => ⟨S8, .i32⟩
  | 41 => ⟨S8, .i1⟩
  | 42 => ⟨S_, .i32⟩
  | 43 => ⟨S8, .i32⟩
  | 44 => ⟨S8, .i32⟩
  | 45 => ⟨S8, .i32⟩
  | 46 => ⟨S8x1, .i32⟩
  | 47 => ⟨S8x1, .i32⟩
  | 48 => ⟨S8x2, .i32⟩
  | 49 => ⟨S8x256, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call0_cst : Ref sig .tc := ⟨.hbm, 83, rfl⟩
abbrev main_call0_v0 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call1_cst : Ref sig .tc := ⟨.hbm, 111, rfl⟩
abbrev main_call1_v0 : Ref sig .tc := ⟨.hbm, 112, rfl⟩
abbrev main_v82 : Ref sig .tc := ⟨.hbm, 113, rfl⟩
abbrev main_c_15 : Ref sig .tc := ⟨.hbm, 114, rfl⟩
abbrev main_v83 : Ref sig .tc := ⟨.hbm, 115, rfl⟩
abbrev main_v84 : Ref sig .tc := ⟨.hbm, 116, rfl⟩
abbrev main_c_16 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_call2_cst : Ref sig .tc := ⟨.hbm, 139, rfl⟩
abbrev main_call2_v0 : Ref sig .tc := ⟨.hbm, 140, rfl⟩
abbrev main_v105 : Ref sig .tc := ⟨.hbm, 141, rfl⟩
abbrev main_cst_18 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_19 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_21 : Ref sig .tc := ⟨.hbm, 156, rfl⟩
abbrev main_call3_v0 : Ref sig .tc := ⟨.hbm, 157, rfl⟩
abbrev main_v117 : Ref sig .tc := ⟨.hbm, 158, rfl⟩
abbrev main_v118 : Ref sig .tc := ⟨.hbm, 159, rfl⟩
abbrev main_c_22 : Ref sig .tc := ⟨.hbm, 160, rfl⟩
abbrev main_v119 : Ref sig .tc := ⟨.hbm, 161, rfl⟩
abbrev main_v120 : Ref sig .tc := ⟨.hbm, 162, rfl⟩
abbrev main_c_23 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_24 : Ref sig .tc := ⟨.hbm, 167, rfl⟩
abbrev main_v124 : Ref sig .tc := ⟨.hbm, 168, rfl⟩
abbrev main_v125 : Ref sig .tc := ⟨.hbm, 169, rfl⟩
abbrev main_c_25 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩

abbrev nD : Nat := 1
abbrev τ : Topo := Topo.v7x

variable {F : FTy → Type} [FloatOps F]

class Facts₀ : Prop where
  slices_S524288x2_S524288x1_0_0 : S524288x2.Slices ![0, 0] S524288x1
  shapeCasts_S524288x1_S524288 : S524288x1.ShapeCasts S524288
  slices_S524288x2_S524288x1_0_1 : S524288x2.Slices ![0, 1] S524288x1
  bcast_S_S524288 : S_.BroadcastsInDim S524288 (![] : Fin 0 → Fin S524288.rank)
  bcast_S_S32768 : S_.BroadcastsInDim S32768 (![] : Fin 0 → Fin S32768.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S32768x128 : S_.BroadcastsInDim S32768x128 (![] : Fin 0 → Fin S32768x128.rank)
  bcast_S32768_S32768x1_0 : S32768.BroadcastsInDim S32768x1 (![0] : Fin 1 → Fin S32768x1.rank)
  bcast_S32768x1_S32768x128_0_1 : S32768x1.BroadcastsInDim S32768x128 (![0, 1] : Fin 2 → Fin S32768x128.rank)
  transposes_S256x128_S128x256_1_0 : S256x128.Transposes [1, 0] S128x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S524288x1_S524288x256_0_1 : S524288x1.BroadcastsInDim S524288x256 (![0, 1] : Fin 2 → Fin S524288x256.rank)
  bcast_S32768x1_S32768x256_0_1 : S32768x1.BroadcastsInDim S32768x256 (![0, 1] : Fin 2 → Fin S32768x256.rank)
  transposes_S256x256_S256x256_1_0 : S256x256.Transposes [1, 0] S256x256
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  shapeCasts_S4096x256_S8x512x256 : S4096x256.ShapeCasts S8x512x256
  pads_S8x512x256_S8x1024x256_000_05120_000 : S8x512x256.Pads (![0, 0, 0] : Fin 3 → Nat) ![0, 512, 0] ![0, 0, 0] S8x1024x256
  h_S_ : 0 < S_.numel
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  scatter_S32768_S524288x1_S524288_n_0_0_1_wf : ScatterDims.WF S32768 S524288x1 S524288 [] [0] [0] 1
  gather_S32768_S524288x1_S524288_n_0_n_n_0_1_1_wf : GatherDims.WF S32768 S524288x1 S524288 [] [0] [] [0] [] 1 ![1]
  gather_S32768x128_S524288x1_S524288x128_1_0_n_n_0_1_1128_wf : GatherDims.WF S32768x128 S524288x1 S524288x128 [1] [0] [] [0] [] 1 ![1, 128]
  scatter_S32768x128_S524288x1_S524288x128_1_0_0_1_wf : ScatterDims.WF S32768x128 S524288x1 S524288x128 [1] [0] [0] 1
  dot_S32768x128_S128x256_S32768x256_1_0_0_1_n_n_wf : DotDims.WF S32768x128 S128x256 S32768x256 [1] [0] [0] [1] [] []
  gather_S32768x256_S524288x1_S524288x256_1_0_n_n_0_1_1256_wf : GatherDims.WF S32768x256 S524288x1 S524288x256 [1] [0] [] [0] [] 1 ![1, 256]
  scatter_S32768x256_S524288x1_S524288x256_1_0_0_1_wf : ScatterDims.WF S32768x256 S524288x1 S524288x256 [1] [0] [0] 1
  dot_S32768x256_S256x256_S32768x256_1_0_0_1_n_n_wf : DotDims.WF S32768x256 S256x256 S32768x256 [1] [0] [0] [1] [] []
  scatter_S4096x256_S32768x1_S32768x256_1_0_0_1_wf : ScatterDims.WF S4096x256 S32768x1 S32768x256 [1] [0] [0] 1
  scatter_S4096_S32768x1_S32768_n_0_0_1_wf : ScatterDims.WF S4096 S32768x1 S32768 [] [0] [0] 1
  gather_S8x512x256_S8x2_S8x256_1_01_n_n_01_1_11256_wf : GatherDims.WF S8x512x256 S8x2 S8x256 [1] [0, 1] [] [0, 1] [] 1 ![1, 1, 256]

variable [Facts₀]

def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def gather_S32768_S524288x1_S524288_n_0_n_n_0_1_1 : GatherDims S32768 S524288x1 S524288 where
  offsetDims := []
  collapsedSliceDims := [0]
  operandBatchingDims := []
  startIndicesBatchingDims := []
  startIndexMap := [0]
  indexVectorDim := 1
  sliceSizes := ![1]
  wf := gather_S32768_S524288x1_S524288_n_0_n_n_0_1_1_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def gather_S32768x256_S524288x1_S524288x256_1_0_n_n_0_1_1256 : GatherDims S32768x256 S524288x1 S524288x256 where
  offsetDims := [1]
  collapsedSliceDims := [0]
  operandBatchingDims := []
  startIndicesBatchingDims := []
  startIndexMap := [0]
  indexVectorDim := 1
  sliceSizes := ![1, 256]
  wf := gather_S32768x256_S524288x1_S524288x256_1_0_n_n_0_1_1256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def scatter_S4096x256_S32768x1_S32768x256_1_0_0_1 : ScatterDims S4096x256 S32768x1 S32768x256 where
  updateWindowDims := [1]
  insertedWindowDims := [0]
  scatterDimsToOperandDims := [0]
  indexVectorDim := 1
  wf := scatter_S4096x256_S32768x1_S32768x256_1_0_0_1_wf
def scatter_S4096_S32768x1_S32768_n_0_0_1 : ScatterDims S4096 S32768x1 S32768 where
  updateWindowDims := []
  insertedWindowDims := [0]
  scatterDimsToOperandDims := [0]
  indexVectorDim := 1
  wf := scatter_S4096_S32768x1_S32768_n_0_0_1_wf
def gather_S8x512x256_S8x2_S8x256_1_01_n_n_01_1_11256 : GatherDims S8x512x256 S8x2 S8x256 where
  offsetDims := [1]
  collapsedSliceDims := [0, 1]
  operandBatchingDims := []
  startIndicesBatchingDims := []
  startIndexMap := [0, 1]
  indexVectorDim := 1
  sliceSizes := ![1, 1, 256]
  wf := gather_S8x512x256_S8x2_S8x256_1_01_n_n_01_1_11256_wf

class Facts : Prop extends Facts₀ where

variable [Facts]
-- ==== Proof.Stages.lean ====
/-
  The graph network's host stages, each named once as a pure function of arrays.

  Both programs compute, from node features x [32768,128] and an edge list [524288,2] (column 0 the source node of an
  edge, column 1 its target): the degrees with a self loop, deg(v) = 1 + #edges at v; the edge weights
  1 / sqrt(degIn(src) * degOut(dst)) and the self weights 1 / sqrt(degIn(v) * degOut(v)); then three times
  "aggregate, then dense layer": agg(h)[v] = sum over edges into v of h[src] * w(edge), plus h[v] * selfw(v), followed by
  max(agg * W^T + b, 0); then the per-residue mean of the last features, reshaped per graph, padded, and one row per
  graph picked at its position. Everything but the dense layer is the same sequence of host operations in the two
  programs; this module names those operations. An index is wrapped the way jnp indexing wraps it (a negative index
  gets the extent added) before it is used as a gather index.
-/
import proofs.«136707_j6055903887370_1_alg».proof.Proof.Gen.ReferenceIdeal
import Idealize.ShloMosaic.PureOps.Ideal

noncomputable section

namespace Cert.Gcn

open Idealize.ShloMosaic Cert.ReferenceIdeal Cert.ReferenceIdeal.Gen

/-- An array of the given shape and element type, read at the extended reals. -/
abbrev Arr (s : Shape) (e : EltTy) : Type := (⟨s, e⟩ : BufTy).Contents (Elt Ideal)

/-- Column 0 of the edge list: each edge's source node. -/
def nodeIn (ei : Arr S524288x2 .i32) : Arr S524288 .i32 :=
  shapeCast _ (extractStridedSlice S524288x1 ![0, 0] ei slices_S524288x2_S524288x1_0_0) shapeCasts_S524288x1_S524288

/-- Column 1 of the edge list: each edge's target node. -/
def nodeOut (ei : Arr S524288x2 .i32) : Arr S524288 .i32 :=
  shapeCast _ (extractStridedSlice S524288x1 ![0, 1] ei slices_S524288x2_S524288x1_0_1) shapeCasts_S524288x1_S524288

/-- A node number per edge as a gather index: negative numbers get 32768 added, then the index column. -/
def wrapNode (v : Arr S524288 .i32) : Arr S524288x1 .i32 :=
  broadcastInDim S524288x1 ![0] bcast_S524288_S524288x1_0
    (select (cmpi .slt v (broadcastInDim S524288 ![] bcast_S_S524288 (constantI S_ 32 0#32)))
      (addi v (broadcastInDim S524288 ![] bcast_S_S524288 (constantI S_ 32 32768#32))) v)

/-- 1 + the number of edges whose listed end is the node. -/
def degree (v : Arr S524288 .i32) : Arr S32768 .f32 :=
  addf (Host.scatterAdd scatter_S32768_S524288x1_S524288_n_0_0_1
      (broadcastInDim S32768 ![] bcast_S_S32768 (constant (F := Ideal) S_ .f32 0x00000000#32))
      (broadcastInDim S524288x1 ![0] bcast_S524288_S524288x1_0 v)
      (broadcastInDim S524288 ![] bcast_S_S524288 (constant (F := Ideal) S_ .f32 0x3F800000#32)))
    (broadcastInDim S32768 ![] bcast_S_S32768 (constant (F := Ideal) S_ .f32 0x3F800000#32))

/-- The weight of an edge: 1 / sqrt(degIn(source) * degOut(target)). -/
def edgeWeightOf (nin nout : Arr S524288 .i32) : Arr S524288 .f32 :=
  Host.divf (broadcastInDim S524288 ![] bcast_S_S524288 (constant (F := Ideal) S_ .f32 0x3F800000#32))
    (Host.sqrt (mulf (Host.gather gather_S32768_S524288x1_S524288_n_0_n_n_0_1_1 (degree nin) (wrapNode nin))
      (Host.gather gather_S32768_S524288x1_S524288_n_0_n_n_0_1_1 (degree nout) (wrapNode nout))))

/-- The weight of a node's self loop: 1 / sqrt(degIn(v) * degOut(v)). -/
def selfWeightOf (nin nout : Arr S524288 .i32) : Arr S32768 .f32 :=
  Host.divf (broadcastInDim S32768 ![] bcast_S_S32768 (constant (F := Ideal) S_ .f32 0x3F800000#32))
    (Host.sqrt (mulf (degree nin) (degree nout)))

def edgeWeight (ei : Arr S524288x2 .i32) : Arr S524288 .f32 := edgeWeightOf (nodeIn ei) (nodeOut ei)
def selfWeight (ei : Arr S524288x2 .i32) : Arr S32768 .f32 := selfWeightOf (nodeIn ei) (nodeOut ei)

/-- Aggregation of 128-wide features over the graph, from the four edge arrays. -/
def agg128Of (h : Arr S32768x128 .f32) (nin nout : Arr S524288 .i32) (ew : Arr S524288 .f32) (sw : Arr S32768 .f32) :
    Arr S32768x128 .f32 :=
  addf (Host.scatterAdd scatter_S32768x128_S524288x1_S524288x128_1_0_0_1
      (broadcastInDim S32768x128 ![] bcast_S_S32768x128 (constant (F := Ideal) S_ .f32 0x00000000#32))
      (broadcastInDim S524288x1 ![0] bcast_S524288_S524288x1_0 nout)
      (mulf (Host.gather gather_S32768x128_S524288x1_S524288x128_1_0_n_n_0_1_1128 h (wrapNode nin))
        (broadcastInDim S524288x128 ![0, 1] bcast_S524288x1_S524288x128_0_1
          (broadcastInDim S524288x1 ![0] bcast_S524288_S524288x1_0 ew))))
    (mulf h (broadcastInDim S32768x128 ![0, 1] bcast_S32768x1_S32768x128_0_1
      (broadcastInDim S32768x1 ![0] bcast_S32768_S32768x1_0 sw)))

/-- Aggregation of 256-wide features over the graph, from the four edge arrays. -/
def agg256Of (h : Arr S32768x256 .f32) (nin nout : Arr S524288 .i32) (ew : Arr S524288 .f32) (sw : Arr S32768 .f32) :
    Arr S32768x256 .f32 :=
  addf (Host.scatterAdd scatter_S32768x256_S524288x1_S524288x256_1_0_0_1
      (broadcastInDim S32768x256 ![] bcast_S_S32768x256 (constant (F := Ideal) S_ .f32 0x00000000#32))
      (broadcastInDim S524288x1 ![0] bcast_S524288_S524288x1_0 nout)
      (mulf (Host.gather gather_S32768x256_S524288x1_S524288x256_1_0_n_n_0_1_1256 h (wrapNode nin))
        (broadcastInDim S524288x256 ![0, 1] bcast_S524288x1_S524288x256_0_1
          (broadcastInDim S524288x1 ![0] bcast_S524288_S524288x1_0 ew))))
    (mulf h (broadcastInDim S32768x256 ![0, 1] bcast_S32768x1_S32768x256_0_1
      (broadcastInDim S32768x1 ![0] bcast_S32768_S32768x1_0 sw)))

def agg128 (h : Arr S32768x128 .f32) (ei : Arr S524288x2 .i32) : Arr S32768x128 .f32 :=
  agg128Of h (nodeIn ei) (nodeOut ei) (edgeWeight ei) (selfWeight ei)
def agg256 (h : Arr S32768x256 .f32) (ei : Arr S524288x2 .i32) : Arr S32768x256 .f32 :=
  agg256Of h (nodeIn ei) (nodeOut ei) (edgeWeight ei) (selfWeight ei)

/-- The host's dense layer on 128-wide features: max(agg * W^T + b, 0). -/
def hostLayer128 (a : Arr S32768x128 .f32) (w : Arr S256x128 .f32) (b : Arr S256 .f32) : Arr S32768x256 .f32 :=
  maximumf (addf (Host.dotGeneral (φ₁ := .f32) (φ₂ := .f32) dot_S32768x128_S128x256_S32768x256_1_0_0_1_n_n none a
        (transpose S128x256 [1, 0] w transposes_S256x128_S128x256_1_0))
      (broadcastInDim S32768x256 ![0, 1] bcast_S1x256_S32768x256_0_1 (broadcastInDim S1x256 ![1] bcast_S256_S1x256_1 b)))
    (broadcastInDim S32768x256 ![] bcast_S_S32768x256 (constant (F := Ideal) S_ .f32 0x00000000#32))

/-- The host's dense layer on 256-wide features: max(agg * W^T + b, 0). -/
def hostLayer256 (a : Arr S32768x256 .f32) (w : Arr S256x256 .f32) (b : Arr S256 .f32) : Arr S32768x256 .f32 :=
  maximumf (addf (Host.dotGeneral (φ₁ := .f32) (φ₂ := .f32) dot_S32768x256_S256x256_S32768x256_1_0_0_1_n_n none a
        (transpose S256x256 [1, 0] w transposes_S256x256_S256x256_1_0))
      (broadcastInDim S32768x256 ![0, 1] bcast_S1x256_S32768x256_0_1 (broadcastInDim S1x256 ![1] bcast_S256_S1x256_1 b)))
    (broadcastInDim S32768x256 ![] bcast_S_S32768x256 (constant (F := Ideal) S_ .f32 0x00000000#32))

/-- The per-residue mean of the atoms' features, one block of 512 residues per graph. -/
def residueMean (h : Arr S32768x256 .f32) (a2r : Arr S32768 .i32) : Arr S8x512x256 .f32 :=
  shapeCast _ (Host.divf
      (Host.scatterAdd scatter_S4096x256_S32768x1_S32768x256_1_0_0_1
        (broadcastInDim S4096x256 ![] bcast_S_S4096x256 (constant (F := Ideal) S_ .f32 0x00000000#32))
        (broadcastInDim S32768x1 ![0] bcast_S32768_S32768x1_0 a2r) h)
      (broadcastInDim S4096x256 ![0, 1] bcast_S4096x1_S4096x256_0_1
        (broadcastInDim S4096x1 ![0] bcast_S4096_S4096x1_0
          (Host.scatterAdd scatter_S4096_S32768x1_S32768_n_0_0_1
            (broadcastInDim S4096 ![] bcast_S_S4096 (constant (F := Ideal) S_ .f32 0x00000000#32))
            (broadcastInDim S32768x1 ![0] bcast_S32768_S32768x1_0 a2r)
            (broadcastInDim S32768 ![] bcast_S_S32768 (constant (F := Ideal) S_ .f32 0x3F800000#32))))))
    shapeCasts_S4096x256_S8x512x256

/-- Each graph's residues padded from 512 to 1024 rows with zeros. -/
def padded (nf : Arr S8x512x256 .f32) : Arr S8x1024x256 .f32 :=
  pad S8x1024x256 ![0, 0, 0] ![0, 512, 0] ![0, 0, 0] nf (sitofp (F := Ideal) .f32 (constantI S_ 32 0#32))
    pads_S8x512x256_S8x1024x256_000_05120_000 h_S_

/-- One residue row per graph: graph g's row at its (wrapped) position. -/
def picked (nf : Arr S8x512x256 .f32) (pos : Arr S8 .i32) : Arr S8x256 .f32 :=
  Host.gather gather_S8x512x256_S8x2_S8x256_1_01_n_n_01_1_11256 nf
    (concatenate S8x2 1
      [⟨S8x1, broadcastInDim S8x1 ![0] bcast_S8_S8x1_0
          (select (cmpi .slt (iotaInDim S8 32 0) (broadcastInDim S8 ![] bcast_S_S8 (constantI S_ 32 0#32)))
            (addi (iotaInDim S8 32 0) (broadcastInDim S8 ![] bcast_S_S8 (constantI S_ 32 8#32))) (iotaInDim S8 32 0))⟩,
       ⟨S8x1, broadcastInDim S8x1 ![0] bcast_S8_S8x1_0
          (select (cmpi .slt pos (broadcastInDim S8 ![] bcast_S_S8 (constantI S_ 32 0#32)))
            (addi pos (broadcastInDim S8 ![] bcast_S_S8 (constantI S_ 32 512#32))) pos)⟩]
      concatenates_S8x1_S8x1_S8x2_d1)

/-- The three rounds of "aggregate, then dense layer" followed by the per-residue mean, with the three dense layers as
    parameters: the two programs differ only in how they compute those. -/
def network (L1 : Arr S32768x128 .f32 → Arr S256x128 .f32 → Arr S256 .f32 → Arr S32768x256 .f32)
    (L2 L3 : Arr S32768x256 .f32 → Arr S256x256 .f32 → Arr S256 .f32 → Arr S32768x256 .f32)
    (x : Arr S32768x128 .f32) (ei : Arr S524288x2 .i32) (a2r : Arr S32768 .i32)
    (w1 : Arr S256x128 .f32) (b1 : Arr S256 .f32) (w2 : Arr S256x256 .f32) (b2 : Arr S256 .f32)
    (w3 : Arr S256x256 .f32) (b3 : Arr S256 .f32) : Arr S8x512x256 .f32 :=
  residueMean (L3 (agg256 (L2 (agg256 (L1 (agg128 x ei) w1 b1) ei) w2 b2) ei) w3 b3) a2r

end Cert.Gcn

end
-- ==== Proof.RefStages.lean ====
/-
  The reference program's stages are the named stages.

  The generated reading of the reference gives every operation's value as a function of the arguments. Here each block of
  operations is identified with the stage it computes: the edge columns, the edge and self weights, the three
  aggregations, the three dense layers in the host's spelling, the residue mean, the padding and the row pick. Each
  identification holds by unfolding, since the stage definitions spell the same operations in the same order.
-/
import proofs.«136707_j6055903887370_1_alg».proof.Proof.Gen.ReferenceIdeal.Read
import proofs.«136707_j6055903887370_1_alg».proof.Proof.Stages

set_option maxRecDepth 16384

noncomputable section

namespace Cert.Gcn.Ref

open Idealize.ShloMosaic Idealize.SL.Sem Cert.ReferenceIdeal Cert.ReferenceIdeal.Gen Cert.ReferenceIdeal.Read

variable (x0 : Arr S32768x128 .f32) (x1 : Arr S524288x2 .i32) (x2 : Arr S32768 .i32) (x3 : Arr S8 .i32)
  (x4 : Arr S256x128 .f32) (x5 : Arr S256 .f32) (x6 : Arr S256x256 .f32) (x7 : Arr S256 .f32)
  (x8 : Arr S256x256 .f32) (x9 : Arr S256 .f32)

theorem agg1_eq : val_main_v53 (F := Ideal) x0 x1 = agg128 x0 x1 := rfl

theorem layer1_eq : val_main_v59 (F := Ideal) x0 x1 x4 x5 = hostLayer128 (val_main_v53 (F := Ideal) x0 x1) x4 x5 := rfl

theorem agg2_eq : val_main_v76 (F := Ideal) x0 x1 x4 x5 = agg256 (val_main_v59 (F := Ideal) x0 x1 x4 x5) x1 := rfl

theorem layer2_eq : val_main_v82 (F := Ideal) x0 x1 x4 x5 x6 x7
    = hostLayer256 (val_main_v76 (F := Ideal) x0 x1 x4 x5) x6 x7 := rfl

theorem agg3_eq : val_main_v99 (F := Ideal) x0 x1 x4 x5 x6 x7
    = agg256 (val_main_v82 (F := Ideal) x0 x1 x4 x5 x6 x7) x1 := rfl

theorem layer3_eq : val_main_v105 (F := Ideal) x0 x1 x4 x5 x6 x7 x8 x9
    = hostLayer256 (val_main_v99 (F := Ideal) x0 x1 x4 x5 x6 x7) x8 x9 := rfl

theorem mean_eq : val_main_v116 (F := Ideal) x0 x1 x2 x4 x5 x6 x7 x8 x9
    = residueMean (val_main_v105 (F := Ideal) x0 x1 x4 x5 x6 x7 x8 x9) x2 := rfl

theorem padded_eq : val_main_v117 (F := Ideal) x0 x1 x2 x4 x5 x6 x7 x8 x9
    = padded (val_main_v116 (F := Ideal) x0 x1 x2 x4 x5 x6 x7 x8 x9) := rfl

theorem picked_eq : val_main_v132 (F := Ideal) x0 x1 x2 x3 x4 x5 x6 x7 x8 x9
    = picked (val_main_v116 (F := Ideal) x0 x1 x2 x4 x5 x6 x7 x8 x9) x3 := rfl

/-- The reference's residue means are the network with the host's dense layers. -/
theorem mean_network : val_main_v116 (F := Ideal) x0 x1 x2 x4 x5 x6 x7 x8 x9
    = network hostLayer128 hostLayer256 hostLayer256 x0 x1 x2 x4 x5 x6 x7 x8 x9 := by
  rw [mean_eq, layer3_eq, agg3_eq, layer2_eq, agg2_eq, layer1_eq, agg1_eq]; rfl

end Cert.Gcn.Ref

end
-- ==== Proof.KRun.lean ====
/-
  The idealized kernel's run with its buffers named.

  @main of the kernel's program is nine segments: host operations, the first dense layer's region, host operations, the
  second layer's region, host operations, the third layer's region, and three more stretches of host operations. The
  contents of the TensorCore's buffers at each boundary are a fold through those segments: a host stretch applies its
  operations, a region replaces its output array by what its grid points write back. This module runs the segments from
  the launch memory and reads every unscoped buffer of the final state against the last fold, so that the results'
  buffers, not only the arguments', are named after the run.
-/
import proofs.«136707_j6055903887370_1_alg».proof.Proof.Gen.KernelIdeal.Frame

set_option maxRecDepth 16384

noncomputable section

namespace Cert.KernelIdeal.Folded

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- From any memory with zero counters every weakly fair execution of @main terminates, and in every final state each
    unscoped TensorCore buffer of each device holds what the fold through the nine segments says. -/
theorem run_folded : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core gets a ghost resource besides
      iintro Hu
      imodintro
      isplitl [Hu]
      · -- owning the launch element is owning its image in the pipelines' algebra: the two spellings unfold to one
        iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      -- consecutive segments agree on the buffers' contents by construction; the last state is regrouped
      refine ⟨fun _ => .rfl, fun _ => .rfl, fun _ => .rfl, fun _ => .rfl, fun _ => .rfl, fun _ => .rfl, fun _ => .rfl,
        fun _ => .rfl, fun _ => .rfl, fun c => ?_⟩
      show iprop(StableHlo.held (c : Thread nD τ) (Pipeline.ucRefs τ sig) (W9 m ρ c)
          ∗ ((∃ r, prngReg c r) ∗ ∃ W, owes (c : Thread nD τ) (0 : CellTallies nD τ sig Unit) W))
        ⊢ iprop((StableHlo.held (c : Thread nD τ) (Pipeline.ucRefs τ sig) (W9 m ρ c) ∗ ∃ r, prngReg c r)
          ∗ ∃ W, owes (c : Thread nD τ) (0 : CellTallies nD τ sig Unit) W)
      iintro ⟨Hbufs, Hreg, Howes⟩
      isplitr [Howes]
      · isplitl [Hbufs] <;> iassumption
      · iexact Howes)
    (hinit := by
      -- each core starts from its unscoped buffers at the launch memory, its generator register, and owing nothing
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W9 m ρ c b)
    (hfin := fun c s' => by
      -- the buffers held at the last fold, read against the final memory
      iintro ⟨⟨Hbufs, -⟩, HSI⟩
      unfold StableHlo.held
      imodintro
      iapply (pointsTo_read_all (Pipeline.ucRefs τ sig) (fun b => (((c : Thread nD τ)).1, b)) (W9 m ρ c) s')
      isplitl [Hbufs] <;> iassumption)
    (hQ := fun s h => h)

end Cert.KernelIdeal.Folded

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.KPay.lean ====
/-
  The kernel bodies' stored value, entry by entry.

  Each of the three regions runs the same body on a block of 2048 rows: load the feature block, the whole weight matrix
  and the bias row; multiply the features by the weights on the matrix unit, contracting the second axis of both, into a
  zero accumulator; add the bias row broadcast down the rows; take the maximum with zero; store. At the extended reals
  the narrowing of the operands is the identity, so entry (r, q) of the stored block is the sum over i of
  features(r, i) * weights(q, i), plus bias(0, q), rectified.
-/
import proofs.«136707_j6055903887370_1_alg».proof.Proof.Gen.KernelIdeal.Skeleton
import proofs.«136707_j6055903887370_1_alg».proof.Proof.LibContract
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer

open Idealize.ShloMosaic Idealize.ShloMosaic.ValueIdx Cert.KernelIdeal Cert.KernelIdeal.Gen
open scoped BigOperators

/-- Region 0's contraction reads the left block in the output's row. -/
theorem lhsRow0 (j : S2048x256.Idx) (c : dot_S2048x128_S256x128_S2048x256_1_1_0_0_n_n.contr.Idx) : (dot_S2048x128_S256x128_S2048x256_1_1_0_0_n_n.lhsIdx j c 0).val = (j 0).val := by
  unfold DotDims.lhsIdx
  rw [dif_neg (show ¬(0 : Fin S2048x128.rank) ∈ dot_S2048x128_S256x128_S2048x256_1_1_0_0_n_n.lhsBatch by decide),
    dif_pos (show (0 : Fin S2048x128.rank) ∈ dot_S2048x128_S256x128_S2048x256_1_1_0_0_n_n.lhsNonContracting by decide)]
  rfl

/-- Region 0's contraction reads the weights in the row numbered by the output's column. -/
theorem rhsRow0 (j : S2048x256.Idx) (c : dot_S2048x128_S256x128_S2048x256_1_1_0_0_n_n.contr.Idx) : (dot_S2048x128_S256x128_S2048x256_1_1_0_0_n_n.rhsIdx j c 0).val = (j 1).val := by
  unfold DotDims.rhsIdx
  rw [dif_neg (show ¬(0 : Fin S256x128.rank) ∈ dot_S2048x128_S256x128_S2048x256_1_1_0_0_n_n.rhsBatch by decide),
    dif_pos (show (0 : Fin S256x128.rank) ∈ dot_S2048x128_S256x128_S2048x256_1_1_0_0_n_n.rhsNonContracting by decide)]
  rfl

/-- What region 0's body stores, at entry (r, q) of its 2048-row block: the row r of the feature block against the row q
    of the weights (the matrix unit contracts the second axis of both; the change of float format is the identity),
    plus the bias row's entry q, rectified. -/
theorem pay0_apply (x0 : Vec Ideal S2048x128 .f32) (x1 : Vec Ideal S256x128 .f32) (x2 : Vec Ideal S1x256 .f32)
    (r : Fin 2048) (q : Fin 256) :
    k0_pay1 (F := Ideal) x0 x1 x2 (ix2 r q)
      = max ((∑ i : Fin 128, x0 (ix2 r i) * x1 (ix2 q i)) + x2 (ix2 (0 : Fin 1) q)) (Ideal.ofBits .f32 0x00000000#32) := by
  have hmm : FloatOps.matmul (F := Ideal) dot_S2048x128_S256x128_S2048x256_1_1_0_0_n_n none
        (truncf .bf16 (shapeCast S2048x128 x0 shapeCasts_S2048x128_S2048x128) bitsLt_bf16_f32 : FVec Ideal S2048x128 .bf16)
        (truncf .bf16 x1 bitsLt_bf16_f32 : FVec Ideal S256x128 .bf16) (constant S2048x256 .f32 0x00000000#32) (ix2 r q)
      = ∑ i : Fin 128, x0 (ix2 r i) * x1 (ix2 q i) := by
    refine (Cert.LibContract.matmul_zero_apply dot_S2048x128_S256x128_S2048x256_1_1_0_0_n_n 128 rfl rfl none _ _ (ix2 r q) (fun i => ix2 r i) (fun i => ix2 q i) ?_ ?_).trans ?_
    · intro c i hc
      refine funext fun d => Fin.ext ?_
      match d with
      | ⟨0, _⟩ => exact lhsRow0 (ix2 r q) c
      | ⟨1, _⟩ => exact (dot_S2048x128_S256x128_S2048x256_1_1_0_0_n_n.lhsIdx_val_of_single rfl (ix2 r q) c).trans hc
    · intro c i hc
      refine funext fun d => Fin.ext ?_
      match d with
      | ⟨0, _⟩ => exact rhsRow0 (ix2 r q) c
      | ⟨1, _⟩ => exact (dot_S2048x128_S256x128_S2048x256_1_1_0_0_n_n.rhsIdx_val_of_single rfl (ix2 r q) c).trans hc
    · refine Finset.sum_congr rfl fun i _ => ?_
      show shapeCast S2048x128 x0 shapeCasts_S2048x128_S2048x128 (ix2 r i) * x1 (ix2 q i) = _
      rw [shapeCast_self]
  have hb : broadcastTo S2048x256 (shapeCast S1x256 x2 shapeCasts_S1x256_S1x256) broadcasts_S1x256_S2048x256 (ix2 r q)
      = x2 (ix2 (0 : Fin 1) q) := by
    rw [shapeCast_self]
    exact broadcastTo_1b_ab_apply x2 broadcasts_S1x256_S2048x256 r q
  exact congrArg₂ max (congrArg₂ (· + ·) hmm hb) rfl

/-- Region 1's contraction reads the left block in the output's row. -/
theorem lhsRow1 (j : S2048x256.Idx) (c : dot_S2048x256_S256x256_S2048x256_1_1_0_0_n_n.contr.Idx) : (dot_S2048x256_S256x256_S2048x256_1_1_0_0_n_n.lhsIdx j c 0).val = (j 0).val := by
  unfold DotDims.lhsIdx
  rw [dif_neg (show ¬(0 : Fin S2048x256.rank) ∈ dot_S2048x256_S256x256_S2048x256_1_1_0_0_n_n.lhsBatch by decide),
    dif_pos (show (0 : Fin S2048x256.rank) ∈ dot_S2048x256_S256x256_S2048x256_1_1_0_0_n_n.lhsNonContracting by decide)]
  rfl

/-- Region 1's contraction reads the weights in the row numbered by the output's column. -/
theorem rhsRow1 (j : S2048x256.Idx) (c : dot_S2048x256_S256x256_S2048x256_1_1_0_0_n_n.contr.Idx) : (dot_S2048x256_S256x256_S2048x256_1_1_0_0_n_n.rhsIdx j c 0).val = (j 1).val := by
  unfold DotDims.rhsIdx
  rw [dif_neg (show ¬(0 : Fin S256x256.rank) ∈ dot_S2048x256_S256x256_S2048x256_1_1_0_0_n_n.rhsBatch by decide),
    dif_pos (show (0 : Fin S256x256.rank) ∈ dot_S2048x256_S256x256_S2048x256_1_1_0_0_n_n.rhsNonContracting by decide)]
  rfl

/-- What region 1's body stores, at entry (r, q) of its 2048-row block: the row r of the feature block against the row q
    of the weights (the matrix unit contracts the second axis of both; the change of float format is the identity),
    plus the bias row's entry q, rectified. -/
theorem pay1_apply (x0 : Vec Ideal S2048x256 .f32) (x1 : Vec Ideal S256x256 .f32) (x2 : Vec Ideal S1x256 .f32)
    (r : Fin 2048) (q : Fin 256) :
    k1_pay1 (F := Ideal) x0 x1 x2 (ix2 r q)
      = max ((∑ i : Fin 256, x0 (ix2 r i) * x1 (ix2 q i)) + x2 (ix2 (0 : Fin 1) q)) (Ideal.ofBits .f32 0x00000000#32) := by
  have hmm : FloatOps.matmul (F := Ideal) dot_S2048x256_S256x256_S2048x256_1_1_0_0_n_n none
        (truncf .bf16 (shapeCast S2048x256 x0 shapeCasts_S2048x256_S2048x256) bitsLt_bf16_f32 : FVec Ideal S2048x256 .bf16)
        (truncf .bf16 x1 bitsLt_bf16_f32 : FVec Ideal S256x256 .bf16) (constant S2048x256 .f32 0x00000000#32) (ix2 r q)
      = ∑ i : Fin 256, x0 (ix2 r i) * x1 (ix2 q i) := by
    refine (Cert.LibContract.matmul_zero_apply dot_S2048x256_S256x256_S2048x256_1_1_0_0_n_n 256 rfl rfl none _ _ (ix2 r q) (fun i => ix2 r i) (fun i => ix2 q i) ?_ ?_).trans ?_
    · intro c i hc
      refine funext fun d => Fin.ext ?_
      match d with
      | ⟨0, _⟩ => exact lhsRow1 (ix2 r q) c
      | ⟨1, _⟩ => exact (dot_S2048x256_S256x256_S2048x256_1_1_0_0_n_n.lhsIdx_val_of_single rfl (ix2 r q) c).trans hc
    · intro c i hc
      refine funext fun d => Fin.ext ?_
      match d with
      | ⟨0, _⟩ => exact rhsRow1 (ix2 r q) c
      | ⟨1, _⟩ => exact (dot_S2048x256_S256x256_S2048x256_1_1_0_0_n_n.rhsIdx_val_of_single rfl (ix2 r q) c).trans hc
    · refine Finset.sum_congr rfl fun i _ => ?_
      show shapeCast S2048x256 x0 shapeCasts_S2048x256_S2048x256 (ix2 r i) * x1 (ix2 q i) = _
      rw [shapeCast_self]
  have hb : broadcastTo S2048x256 (shapeCast S1x256 x2 shapeCasts_S1x256_S1x256) broadcasts_S1x256_S2048x256 (ix2 r q)
      = x2 (ix2 (0 : Fin 1) q) := by
    rw [shapeCast_self]
    exact broadcastTo_1b_ab_apply x2 broadcasts_S1x256_S2048x256 r q
  exact congrArg₂ max (congrArg₂ (· + ·) hmm hb) rfl

/-- Region 2's contraction reads the left block in the output's row. -/
theorem lhsRow2 (j : S2048x256.Idx) (c : dot_S2048x256_S256x256_S2048x256_1_1_0_0_n_n.contr.Idx) : (dot_S2048x256_S256x256_S2048x256_1_1_0_0_n_n.lhsIdx j c 0).val = (j 0).val := by
  unfold DotDims.lhsIdx
  rw [dif_neg (show ¬(0 : Fin S2048x256.rank) ∈ dot_S2048x256_S256x256_S2048x256_1_1_0_0_n_n.lhsBatch by decide),
    dif_pos (show (0 : Fin S2048x256.rank) ∈ dot_S2048x256_S256x256_S2048x256_1_1_0_0_n_n.lhsNonContracting by decide)]
  rfl

/-- Region 2's contraction reads the weights in the row numbered by the output's column. -/
theorem rhsRow2 (j : S2048x256.Idx) (c : dot_S2048x256_S256x256_S2048x256_1_1_0_0_n_n.contr.Idx) : (dot_S2048x256_S256x256_S2048x256_1_1_0_0_n_n.rhsIdx j c 0).val = (j 1).val := by
  unfold DotDims.rhsIdx
  rw [dif_neg (show ¬(0 : Fin S256x256.rank) ∈ dot_S2048x256_S256x256_S2048x256_1_1_0_0_n_n.rhsBatch by decide),
    dif_pos (show (0 : Fin S256x256.rank) ∈ dot_S2048x256_S256x256_S2048x256_1_1_0_0_n_n.rhsNonContracting by decide)]
  rfl

/-- What region 2's body stores, at entry (r, q) of its 2048-row block: the row r of the feature block against the row q
    of the weights (the matrix unit contracts the second axis of both; the change of float format is the identity),
    plus the bias row's entry q, rectified. -/
theorem pay2_apply (x0 : Vec Ideal S2048x256 .f32) (x1 : Vec Ideal S256x256 .f32) (x2 : Vec Ideal S1x256 .f32)
    (r : Fin 2048) (q : Fin 256) :
    k2_pay1 (F := Ideal) x0 x1 x2 (ix2 r q)
      = max ((∑ i : Fin 256, x0 (ix2 r i) * x1 (ix2 q i)) + x2 (ix2 (0 : Fin 1) q)) (Ideal.ofBits .f32 0x00000000#32) := by
  have hmm : FloatOps.matmul (F := Ideal) dot_S2048x256_S256x256_S2048x256_1_1_0_0_n_n none
        (truncf .bf16 (shapeCast S2048x256 x0 shapeCasts_S2048x256_S2048x256) bitsLt_bf16_f32 : FVec Ideal S2048x256 .bf16)
        (truncf .bf16 x1 bitsLt_bf16_f32 : FVec Ideal S256x256 .bf16) (constant S2048x256 .f32 0x00000000#32) (ix2 r q)
      = ∑ i : Fin 256, x0 (ix2 r i) * x1 (ix2 q i) := by
    refine (Cert.LibContract.matmul_zero_apply dot_S2048x256_S256x256_S2048x256_1_1_0_0_n_n 256 rfl rfl none _ _ (ix2 r q) (fun i => ix2 r i) (fun i => ix2 q i) ?_ ?_).trans ?_
    · intro c i hc
      refine funext fun d => Fin.ext ?_
      match d with
      | ⟨0, _⟩ => exact lhsRow2 (ix2 r q) c
      | ⟨1, _⟩ => exact (dot_S2048x256_S256x256_S2048x256_1_1_0_0_n_n.lhsIdx_val_of_single rfl (ix2 r q) c).trans hc
    · intro c i hc
      refine funext fun d => Fin.ext ?_
      match d with
      | ⟨0, _⟩ => exact rhsRow2 (ix2 r q) c
      | ⟨1, _⟩ => exact (dot_S2048x256_S256x256_S2048x256_1_1_0_0_n_n.rhsIdx_val_of_single rfl (ix2 r q) c).trans hc
    · refine Finset.sum_congr rfl fun i _ => ?_
      show shapeCast S2048x256 x0 shapeCasts_S2048x256_S2048x256 (ix2 r i) * x1 (ix2 q i) = _
      rw [shapeCast_self]
  have hb : broadcastTo S2048x256 (shapeCast S1x256 x2 shapeCasts_S1x256_S1x256) broadcasts_S1x256_S2048x256 (ix2 r q)
      = x2 (ix2 (0 : Fin 1) q) := by
    rw [shapeCast_self]
    exact broadcastTo_1b_ab_apply x2 broadcasts_S1x256_S2048x256 r q
  exact congrArg₂ max (congrArg₂ (· + ·) hmm hb) rfl

end Cert.KernelIdeal.Layer

end
-- ==== Proof.DenseSpec.lean ====
/-
  The dense layer as one function of its three arrays.

  Entry (p, q) of max(a * w^T + b, 0), for a feature matrix a with 32768 rows and K columns, a weight matrix w with 256
  rows and K columns and a bias b with 256 entries: the sum over i of a(p, i) * w(q, i), plus b(q), and then the maximum with
  the number the all-zero word denotes. Both programs' layers are this function; no law of arithmetic is needed to see
  it, only where each operation reads its operands.
-/
import Idealize.ShloMosaic.PureOps.Ideal
import Idealize.ShloMosaic.Lib.ValueIdx

noncomputable section

namespace Cert.Gcn

open Idealize.ShloMosaic Idealize.ShloMosaic.ValueIdx
open scoped BigOperators

/-- Entry (p, q) of max(a * w^T + b, 0). -/
def denseEntry {K : ℕ} (a : FVec Ideal ⟨2, ![32768, K]⟩ .f32) (w : FVec Ideal ⟨2, ![256, K]⟩ .f32)
    (b : FVec Ideal ⟨1, ![256]⟩ .f32) (p : Fin 32768) (q : Fin 256) : EReal :=
  max ((∑ i : Fin K, a (ix2 p i) * w (ix2 q i)) + b (ix1 q)) (Ideal.ofBits .f32 0x00000000#32)

/-- max(a * w^T + b, 0) as an array. -/
def dense {K : ℕ} (a : FVec Ideal ⟨2, ![32768, K]⟩ .f32) (w : FVec Ideal ⟨2, ![256, K]⟩ .f32)
    (b : FVec Ideal ⟨1, ![256]⟩ .f32) : FVec Ideal ⟨2, ![32768, 256]⟩ .f32 :=
  fun j => denseEntry a w b (j 0) (j 1)

theorem dense_apply {K : ℕ} (a : FVec Ideal ⟨2, ![32768, K]⟩ .f32) (w : FVec Ideal ⟨2, ![256, K]⟩ .f32)
    (b : FVec Ideal ⟨1, ![256]⟩ .f32) (p : Fin 32768) (q : Fin 256) : dense a w b (ix2 p q) = denseEntry a w b p q := rfl

end Cert.Gcn

end
-- ==== Proof.KLayer.lean ====
/-
  What each region leaves in its output array.

  A region runs its body at sixteen grid points; point t stages rows 2048 t … 2048 t + 2047 of the feature array, the
  whole weight matrix and the whole bias row, and writes the body's block back to the same rows of the output array. The
  body's block is those rows of the dense layer (the payload read entry by entry), the sixteen blocks tile the 32768
  rows, so after the region the output array is the dense layer of the three arrays the region was entered with — the
  bias being held as a one-row matrix. The same argument three times: contraction width 128 in the first region, 256
  in the other two.
-/
import proofs.«136707_j6055903887370_1_alg».proof.Proof.Gen.KernelIdeal.Frame
import proofs.«136707_j6055903887370_1_alg».proof.Proof.KPay
import proofs.«136707_j6055903887370_1_alg».proof.Proof.DenseSpec

set_option maxRecDepth 16384

noncomputable section

namespace Cert.KernelIdeal.Layer

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

theorem hz : (![0, 0] : Fin 2 → Nat) = fun _ => 0 := funext fun a => by fin_cases a <;> rfl

/-- The dense layer with the bias held as a one-row matrix. -/
def denseRow {K : ℕ} (a : FVec Ideal ⟨2, ![32768, K]⟩ .f32) (w : FVec Ideal ⟨2, ![256, K]⟩ .f32)
    (B : FVec Ideal ⟨2, ![1, 256]⟩ .f32) : FVec Ideal ⟨2, ![32768, 256]⟩ .f32 :=
  Cert.Gcn.dense a w (fun i => B (ix2 (0 : Fin 1) (i 0)))

section R0
variable (V : (c : Dev nD) → (b : Ref sig .tc) → Buf (Elt Ideal) ((c : Thread nD τ).loc b))

/-- Region 0's index maps over its sixteen grid points: the feature and output blocks move down the rows with the
    point, the weights and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block of region 0's body: if the feature block is rows n*2048 … of the array, and the other two blocks are the
    whole weights and bias row, the stored block is those rows of the dense layer. -/
theorem block0 (A : FVec Ideal ⟨2, ![32768, 128]⟩ .f32) (Wt : FVec Ideal ⟨2, ![256, 128]⟩ .f32) (B : FVec Ideal ⟨2, ![1, 256]⟩ .f32)
    (n : ℕ) (hn : n < 16)
    (x0 : Vec Ideal S2048x128 .f32) (x1 : Vec Ideal S256x128 .f32) (x2 : Vec Ideal S1x256 .f32)
    (h0 : ∀ (r : Fin 2048) (i : Fin 128), x0 (ix2 r i) = A (ix2 (⟨n * 2048 + r.val, by omega⟩ : Fin 32768) i))
    (h1 : ∀ (q : Fin 256) (i : Fin 128), x1 (ix2 q i) = Wt (ix2 q i))
    (h2 : ∀ q : Fin 256, x2 (ix2 (0 : Fin 1) q) = B (ix2 (0 : Fin 1) q))
    (r : Fin 2048) (q : Fin 256) :
    k0_pay1 (F := Ideal) x0 x1 x2 (ix2 r q) = denseRow A Wt B (ix2 (⟨n * 2048 + r.val, by omega⟩ : Fin 32768) q) := by
  rw [pay0_apply]
  show _ = max ((∑ i : Fin 128, A (ix2 (⟨n * 2048 + r.val, by omega⟩ : Fin 32768) i) * Wt (ix2 q i)) + B (ix2 (0 : Fin 1) q))
    (Ideal.ofBits .f32 0x00000000#32)
  rw [h2 q]
  refine congrArg (fun s => max (s + B (ix2 (0 : Fin 1) q)) (Ideal.ofBits .f32 0x00000000#32)) ?_
  exact Finset.sum_congr rfl fun i _ => by rw [h0 r i, h1 q i]

/-- What grid point t of region 0 writes back is block t of the dense layer of the arrays the region finds. -/
theorem flushed0 (c : Dev nD) (t : Fin cfg0.N) :
    (dat0 V c).flushed 3 t
      = ((cfg0.win 3).blk t).view.read (Elt Ideal) (denseRow (V c main_v53) (V c main_arg4) (V c main_v54)) := by
  show (cfg0.win 3).cut (grid0.coords t) ((dat0 V c).after 3 t) = _
  rw [after0_3]
  unfold out0_3
  rw [View.canon_unit_zero hz]
  simp only [View.ld_unit_zero (S := S2048x128) hz, View.ld_unit_zero (S := S256x128) hz, View.ld_unit_zero (S := S1x256) hz]
  obtain ⟨e00, e01, e10, e11, e20, e21, e30, e31⟩ := idx_facts0 t
  have ht : t.val < 16 := lt_of_lt_of_eq t.isLt N_0
  funext y
  obtain ⟨r, q, rfl⟩ : ∃ (r : Fin 2048) (q : Fin 256), y = ix2 r q := ⟨y 0, y 1, eq_ix2 y⟩
  show k0_pay1 (iblk0 V c 0 t) (iblk0 V c 1 t) (iblk0 V c 2 t) (ix2 r q)
    = denseRow (V c main_v53) (V c main_arg4) (V c main_v54) (((cfg0.win 3).blk t).view.emb (ix2 r q))
  refine (block0 (V c main_v53) (V c main_arg4) (V c main_v54) t.val ht (iblk0 V c 0 t) (iblk0 V c 1 t) (iblk0 V c 2 t)
    ?_ ?_ ?_ r q).trans ?_
  · intro r i
    show V c main_v53 (((cfg0.win 0).blk t).view.emb (ix2 r i)) = _
    refine congrArg _ (funext fun a => Fin.ext ?_)
    match a with
    | ⟨0, _⟩ => show win0_0.index t (0 : Fin 2) * 2048 + 1 * r.val = t.val * 2048 + r.val; omega
    | ⟨1, _⟩ => show win0_0.index t (1 : Fin 2) * 128 + 1 * i.val = i.val; omega
  · intro q i
    show V c main_arg4 (((cfg0.win 1).blk t).view.emb (ix2 q i)) = _
    refine congrArg _ (funext fun a => Fin.ext ?_)
    match a with
    | ⟨0, _⟩ => show win0_1.index t (0 : Fin 2) * 256 + 1 * q.val = q.val; omega
    | ⟨1, _⟩ => show win0_1.index t (1 : Fin 2) * 128 + 1 * i.val = i.val; omega
  · intro q
    show V c main_v54 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega
  · refine congrArg _ (funext fun a => Fin.ext ?_)
    match a with
    | ⟨0, _⟩ => show t.val * 2048 + r.val = win0_3.index t (0 : Fin 2) * 2048 + 1 * r.val; omega
    | ⟨1, _⟩ => show q.val = win0_3.index t (1 : Fin 2) * 256 + 1 * q.val; omega

/-- An index of the output array is in point t's block iff each coordinate is in the block's range on its axis. -/
theorem mem_blk0 (t : Fin cfg0.N) (i : S32768x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v55).slice (win0_3.rect t)).set ↔ _
  rw [View.set_slice_whole, Rect.mem_set_unit]
  exact Iff.rfl

/-- Every row of the output array is in the block of the point numbered by the row's 2048-row band. -/
theorem cover0 (i : S32768x256.Idx) :
    ∃ t : Fin cfg0.N, (cfg0.win 3).flush t = true ∧ i ∈ ((cfg0.win 3).blk t).view.set := by
  have hi0 : (i 0).val < 32768 := (i 0).isLt
  have hi1 : (i 1).val < 256 := (i 1).isLt
  have hN : grid0.N = 16 := N_0
  have hlt : (i 0).val / 2048 < cfg0.N := by rw [show cfg0.N = 16 from hN]; omega
  obtain ⟨_, _, _, _, _, _, e30, e31⟩ := idx_facts0 ⟨(i 0).val / 2048, hlt⟩
  refine ⟨⟨(i 0).val / 2048, hlt⟩, flush0_3 _, ?_⟩
  rw [mem_blk0]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e30]; show (i 0).val / 2048 * 2048 ≤ (i 0).val ∧ (i 0).val < (i 0).val / 2048 * 2048 + 2048; omega
  | ⟨1, _⟩ =>
    show win0_3.index ⟨(i 0).val / 2048, hlt⟩ (1 : Fin 2) * 256 ≤ (i 1).val
      ∧ (i 1).val < win0_3.index ⟨(i 0).val / 2048, hlt⟩ (1 : Fin 2) * 256 + 256
    rw [e31]; omega

/-- THE OUTPUT ARRAY of region 0 after its sixteen points: the dense layer of the arrays the region is entered with. -/
theorem final0 (c : Dev nD) :
    (dat0 V c).arrAt 3 cfg0.N = denseRow (V c main_v53) (V c main_arg4) (V c main_v54) :=
  (dat0 V c).arrAt_eq_of_cover 3 _ (fun t _ => flushed0 V c t) cover0

end R0

section R1
variable (V : (c : Dev nD) → (b : Ref sig .tc) → Buf (Elt Ideal) ((c : Thread nD τ).loc b))

/-- Region 1's index maps over its sixteen grid points: the feature and output blocks move down the rows with the
    point, the weights and the bias row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block of region 1's body: if the feature block is rows n*2048 … of the array, and the other two blocks are the
    whole weights and bias row, the stored block is those rows of the dense layer. -/
theorem block1 (A : FVec Ideal ⟨2, ![32768, 256]⟩ .f32) (Wt : FVec Ideal ⟨2, ![256, 256]⟩ .f32) (B : FVec Ideal ⟨2, ![1, 256]⟩ .f32)
    (n : ℕ) (hn : n < 16)
    (x0 : Vec Ideal S2048x256 .f32) (x1 : Vec Ideal S256x256 .f32) (x2 : Vec Ideal S1x256 .f32)
    (h0 : ∀ (r : Fin 2048) (i : Fin 256), x0 (ix2 r i) = A (ix2 (⟨n * 2048 + r.val, by omega⟩ : Fin 32768) i))
    (h1 : ∀ (q : Fin 256) (i : Fin 256), x1 (ix2 q i) = Wt (ix2 q i))
    (h2 : ∀ q : Fin 256, x2 (ix2 (0 : Fin 1) q) = B (ix2 (0 : Fin 1) q))
    (r : Fin 2048) (q : Fin 256) :
    k1_pay1 (F := Ideal) x0 x1 x2 (ix2 r q) = denseRow A Wt B (ix2 (⟨n * 2048 + r.val, by omega⟩ : Fin 32768) q) := by
  rw [pay1_apply]
  show _ = max ((∑ i : Fin 256, A (ix2 (⟨n * 2048 + r.val, by omega⟩ : Fin 32768) i) * Wt (ix2 q i)) + B (ix2 (0 : Fin 1) q))
    (Ideal.ofBits .f32 0x00000000#32)
  rw [h2 q]
  refine congrArg (fun s => max (s + B (ix2 (0 : Fin 1) q)) (Ideal.ofBits .f32 0x00000000#32)) ?_
  exact Finset.sum_congr rfl fun i _ => by rw [h0 r i, h1 q i]

/-- What grid point t of region 1 writes back is block t of the dense layer of the arrays the region finds. -/
theorem flushed1 (c : Dev nD) (t : Fin cfg1.N) :
    (dat1 V c).flushed 3 t
      = ((cfg1.win 3).blk t).view.read (Elt Ideal) (denseRow (V c main_v72) (V c main_arg6) (V c main_v73)) := by
  show (cfg1.win 3).cut (grid1.coords t) ((dat1 V c).after 3 t) = _
  rw [after1_3]
  unfold out1_3
  rw [View.canon_unit_zero hz]
  simp only [View.ld_unit_zero (S := S2048x256) hz, View.ld_unit_zero (S := S256x256) hz, View.ld_unit_zero (S := S1x256) hz]
  obtain ⟨e00, e01, e10, e11, e20, e21, e30, e31⟩ := idx_facts1 t
  have ht : t.val < 16 := lt_of_lt_of_eq t.isLt N_1
  funext y
  obtain ⟨r, q, rfl⟩ : ∃ (r : Fin 2048) (q : Fin 256), y = ix2 r q := ⟨y 0, y 1, eq_ix2 y⟩
  show k1_pay1 (iblk1 V c 0 t) (iblk1 V c 1 t) (iblk1 V c 2 t) (ix2 r q)
    = denseRow (V c main_v72) (V c main_arg6) (V c main_v73) (((cfg1.win 3).blk t).view.emb (ix2 r q))
  refine (block1 (V c main_v72) (V c main_arg6) (V c main_v73) t.val ht (iblk1 V c 0 t) (iblk1 V c 1 t) (iblk1 V c 2 t)
    ?_ ?_ ?_ r q).trans ?_
  · intro r i
    show V c main_v72 (((cfg1.win 0).blk t).view.emb (ix2 r i)) = _
    refine congrArg _ (funext fun a => Fin.ext ?_)
    match a with
    | ⟨0, _⟩ => show win1_0.index t (0 : Fin 2) * 2048 + 1 * r.val = t.val * 2048 + r.val; omega
    | ⟨1, _⟩ => show win1_0.index t (1 : Fin 2) * 256 + 1 * i.val = i.val; omega
  · intro q i
    show V c main_arg6 (((cfg1.win 1).blk t).view.emb (ix2 q i)) = _
    refine congrArg _ (funext fun a => Fin.ext ?_)
    match a with
    | ⟨0, _⟩ => show win1_1.index t (0 : Fin 2) * 256 + 1 * q.val = q.val; omega
    | ⟨1, _⟩ => show win1_1.index t (1 : Fin 2) * 256 + 1 * i.val = i.val; omega
  · intro q
    show V c main_v73 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = q.val; omega
  · refine congrArg _ (funext fun a => Fin.ext ?_)
    match a with
    | ⟨0, _⟩ => show t.val * 2048 + r.val = win1_3.index t (0 : Fin 2) * 2048 + 1 * r.val; omega
    | ⟨1, _⟩ => show q.val = win1_3.index t (1 : Fin 2) * 256 + 1 * q.val; omega

/-- An index of the output array is in point t's block iff each coordinate is in the block's range on its axis. -/
theorem mem_blk1 (t : Fin cfg1.N) (i : S32768x256.Idx) :
    i ∈ ((cfg1.win 3).blk t).view.set ↔ ∀ a : Fin 2, win1_3.index t a * S2048x256.size a ≤ (i a).val
      ∧ (i a).val < win1_3.index t a * S2048x256.size a + S2048x256.size a := by
  show i ∈ ((View.whole main_v74).slice (win1_3.rect t)).set ↔ _
  rw [View.set_slice_whole, Rect.mem_set_unit]
  exact Iff.rfl

/-- Every row of the output array is in the block of the point numbered by the row's 2048-row band. -/
theorem cover1 (i : S32768x256.Idx) :
    ∃ t : Fin cfg1.N, (cfg1.win 3).flush t = true ∧ i ∈ ((cfg1.win 3).blk t).view.set := by
  have hi0 : (i 0).val < 32768 := (i 0).isLt
  have hi1 : (i 1).val < 256 := (i 1).isLt
  have hN : grid1.N = 16 := N_1
  have hlt : (i 0).val / 2048 < cfg1.N := by rw [show cfg1.N = 16 from hN]; omega
  obtain ⟨_, _, _, _, _, _, e30, e31⟩ := idx_facts1 ⟨(i 0).val / 2048, hlt⟩
  refine ⟨⟨(i 0).val / 2048, hlt⟩, flush1_3 _, ?_⟩
  rw [mem_blk1]
  intro a
  match a with
  | ⟨0, _⟩ =>
    show win1_3.index ⟨(i 0).val / 2048, hlt⟩ (0 : Fin 2) * 2048 ≤ (i 0).val
      ∧ (i 0).val < win1_3.index ⟨(i 0).val / 2048, hlt⟩ (0 : Fin 2) * 2048 + 2048
    rw [e30]; show (i 0).val / 2048 * 2048 ≤ (i 0).val ∧ (i 0).val < (i 0).val / 2048 * 2048 + 2048; omega
  | ⟨1, _⟩ =>
    show win1_3.index ⟨(i 0).val / 2048, hlt⟩ (1 : Fin 2) * 256 ≤ (i 1).val
      ∧ (i 1).val < win1_3.index ⟨(i 0).val / 2048, hlt⟩ (1 : Fin 2) * 256 + 256
    rw [e31]; omega

/-- THE OUTPUT ARRAY of region 1 after its sixteen points: the dense layer of the arrays the region is entered with. -/
theorem final1 (c : Dev nD) :
    (dat1 V c).arrAt 3 cfg1.N = denseRow (V c main_v72) (V c main_arg6) (V c main_v73) :=
  (dat1 V c).arrAt_eq_of_cover 3 _ (fun t _ => flushed1 V c t) cover1

end R1

section R2
variable (V : (c : Dev nD) → (b : Ref sig .tc) → Buf (Elt Ideal) ((c : Thread nD τ).loc b))

/-- Region 2's index maps over its sixteen grid points: the feature and output blocks move down the rows with the
    point, the weights and the bias row stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A block of region 2's body: if the feature block is rows n*2048 … of the array, and the other two blocks are the
    whole weights and bias row, the stored block is those rows of the dense layer. -/
theorem block2 (A : FVec Ideal ⟨2, ![32768, 256]⟩ .f32) (Wt : FVec Ideal ⟨2, ![256, 256]⟩ .f32) (B : FVec Ideal ⟨2, ![1, 256]⟩ .f32)
    (n : ℕ) (hn : n < 16)
    (x0 : Vec Ideal S2048x256 .f32) (x1 : Vec Ideal S256x256 .f32) (x2 : Vec Ideal S1x256 .f32)
    (h0 : ∀ (r : Fin 2048) (i : Fin 256), x0 (ix2 r i) = A (ix2 (⟨n * 2048 + r.val, by omega⟩ : Fin 32768) i))
    (h1 : ∀ (q : Fin 256) (i : Fin 256), x1 (ix2 q i) = Wt (ix2 q i))
    (h2 : ∀ q : Fin 256, x2 (ix2 (0 : Fin 1) q) = B (ix2 (0 : Fin 1) q))
    (r : Fin 2048) (q : Fin 256) :
    k2_pay1 (F := Ideal) x0 x1 x2 (ix2 r q) = denseRow A Wt B (ix2 (⟨n * 2048 + r.val, by omega⟩ : Fin 32768) q) := by
  rw [pay2_apply]
  show _ = max ((∑ i : Fin 256, A (ix2 (⟨n * 2048 + r.val, by omega⟩ : Fin 32768) i) * Wt (ix2 q i)) + B (ix2 (0 : Fin 1) q))
    (Ideal.ofBits .f32 0x00000000#32)
  rw [h2 q]
  refine congrArg (fun s => max (s + B (ix2 (0 : Fin 1) q)) (Ideal.ofBits .f32 0x00000000#32)) ?_
  exact Finset.sum_congr rfl fun i _ => by rw [h0 r i, h1 q i]

/-- What grid point t of region 2 writes back is block t of the dense layer of the arrays the region finds. -/
theorem flushed2 (c : Dev nD) (t : Fin cfg2.N) :
    (dat2 V c).flushed 3 t
      = ((cfg2.win 3).blk t).view.read (Elt Ideal) (denseRow (V c main_v91) (V c main_arg8) (V c main_v92)) := by
  show (cfg2.win 3).cut (grid2.coords t) ((dat2 V c).after 3 t) = _
  rw [after2_3]
  unfold out2_3
  rw [View.canon_unit_zero hz]
  simp only [View.ld_unit_zero (S := S2048x256) hz, View.ld_unit_zero (S := S256x256) hz, View.ld_unit_zero (S := S1x256) hz]
  obtain ⟨e00, e01, e10, e11, e20, e21, e30, e31⟩ := idx_facts2 t
  have ht : t.val < 16 := lt_of_lt_of_eq t.isLt N_2
  funext y
  obtain ⟨r, q, rfl⟩ : ∃ (r : Fin 2048) (q : Fin 256), y = ix2 r q := ⟨y 0, y 1, eq_ix2 y⟩
  show k2_pay1 (iblk2 V c 0 t) (iblk2 V c 1 t) (iblk2 V c 2 t) (ix2 r q)
    = denseRow (V c main_v91) (V c main_arg8) (V c main_v92) (((cfg2.win 3).blk t).view.emb (ix2 r q))
  refine (block2 (V c main_v91) (V c main_arg8) (V c main_v92) t.val ht (iblk2 V c 0 t) (iblk2 V c 1 t) (iblk2 V c 2 t)
    ?_ ?_ ?_ r q).trans ?_
  · intro r i
    show V c main_v91 (((cfg2.win 0).blk t).view.emb (ix2 r i)) = _
    refine congrArg _ (funext fun a => Fin.ext ?_)
    match a with
    | ⟨0, _⟩ => show win2_0.index t (0 : Fin 2) * 2048 + 1 * r.val = t.val * 2048 + r.val; omega
    | ⟨1, _⟩ => show win2_0.index t (1 : Fin 2) * 256 + 1 * i.val = i.val; omega
  · intro q i
    show V c main_arg8 (((cfg2.win 1).blk t).view.emb (ix2 q i)) = _
    refine congrArg _ (funext fun a => Fin.ext ?_)
    match a with
    | ⟨0, _⟩ => show win2_1.index t (0 : Fin 2) * 256 + 1 * q.val = q.val; omega
    | ⟨1, _⟩ => show win2_1.index t (1 : Fin 2) * 256 + 1 * i.val = i.val; omega
  · intro q
    show V c main_v92 (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * q.val = q.val; omega
  · refine congrArg _ (funext fun a => Fin.ext ?_)
    match a with
    | ⟨0, _⟩ => show t.val * 2048 + r.val = win2_3.index t (0 : Fin 2) * 2048 + 1 * r.val; omega
    | ⟨1, _⟩ => show q.val = win2_3.index t (1 : Fin 2) * 256 + 1 * q.val; omega

/-- An index of the output array is in point t's block iff each coordinate is in the block's range on its axis. -/
theorem mem_blk2 (t : Fin cfg2.N) (i : S32768x256.Idx) :
    i ∈ ((cfg2.win 3).blk t).view.set ↔ ∀ a : Fin 2, win2_3.index t a * S2048x256.size a ≤ (i a).val
      ∧ (i a).val < win2_3.index t a * S2048x256.size a + S2048x256.size a := by
  show i ∈ ((View.whole main_v93).slice (win2_3.rect t)).set ↔ _
  rw [View.set_slice_whole, Rect.mem_set_unit]
  exact Iff.rfl

/-- Every row of the output array is in the block of the point numbered by the row's 2048-row band. -/
theorem cover2 (i : S32768x256.Idx) :
    ∃ t : Fin cfg2.N, (cfg2.win 3).flush t = true ∧ i ∈ ((cfg2.win 3).blk t).view.set := by
  have hi0 : (i 0).val < 32768 := (i 0).isLt
  have hi1 : (i 1).val < 256 := (i 1).isLt
  have hN : grid2.N = 16 := N_2
  have hlt : (i 0).val / 2048 < cfg2.N := by rw [show cfg2.N = 16 from hN]; omega
  obtain ⟨_, _, _, _, _, _, e30, e31⟩ := idx_facts2 ⟨(i 0).val / 2048, hlt⟩
  refine ⟨⟨(i 0).val / 2048, hlt⟩, flush2_3 _, ?_⟩
  rw [mem_blk2]
  intro a
  match a with
  | ⟨0, _⟩ =>
    show win2_3.index ⟨(i 0).val / 2048, hlt⟩ (0 : Fin 2) * 2048 ≤ (i 0).val
      ∧ (i 0).val < win2_3.index ⟨(i 0).val / 2048, hlt⟩ (0 : Fin 2) * 2048 + 2048
    rw [e30]; show (i 0).val / 2048 * 2048 ≤ (i 0).val ∧ (i 0).val < (i 0).val / 2048 * 2048 + 2048; omega
  | ⟨1, _⟩ =>
    show win2_3.index ⟨(i 0).val / 2048, hlt⟩ (1 : Fin 2) * 256 ≤ (i 1).val
      ∧ (i 1).val < win2_3.index ⟨(i 0).val / 2048, hlt⟩ (1 : Fin 2) * 256 + 256
    rw [e31]; omega

/-- THE OUTPUT ARRAY of region 2 after its sixteen points: the dense layer of the arrays the region is entered with. -/
theorem final2 (c : Dev nD) :
    (dat2 V c).arrAt 3 cfg2.N = denseRow (V c main_v91) (V c main_arg8) (V c main_v92) :=
  (dat2 V c).arrAt_eq_of_cover 3 _ (fun t _ => flushed2 V c t) cover2

end R2

end Cert.KernelIdeal.Layer

end
-- ==== Proof.KHost.lean ====
/-
  The kernel program's host stretches are the named stages.

  Between and around its three regions the kernel's @main runs stretches of host operations. From ANY contents of the
  buffers a stretch reads, what it leaves in the buffers later segments read is a named stage of those contents: the
  first stretch computes the edge columns, the weights, the first aggregation and the first bias row; the second and
  third an aggregation of 256-wide features (reading the edge columns and weights the first stretch left) and a bias
  row; the last three the residue mean, its padding, and the row pick. A buffer a stretch does not write keeps its
  contents. The stage definitions spell the reference's operations; the kernel's are the same operations over its own
  copies of the dimension records, which agree field by field.
-/
import proofs.«136707_j6055903887370_1_alg».proof.Proof.Gen.KernelIdeal.Launch
import proofs.«136707_j6055903887370_1_alg».proof.Proof.Stages
import Idealize.ShloMosaic.Lib.StableHlo.Run

set_option maxRecDepth 16384
set_option maxHeartbeats 4000000

noncomputable section

namespace Cert.KernelIdeal.Host

open Idealize.ShloMosaic Idealize.ShloMosaic.StableHlo Idealize.SL.Sem Cert.KernelIdeal Cert.KernelIdeal.Gen Cert.Gcn

variable (Wv : Valuation τ sig (Elt Ideal))

/-! ## Before the first region -/

/-- The source column. -/
theorem s0_nodeIn : after (hostOps0 (F := Ideal)) Wv (Proc.devRef .tc main_v1) = nodeIn (Wv (Proc.devRef .tc main_arg1)) := by
  after_results_simp <;> rfl

/-- The target column. -/
theorem s0_nodeOut : after (hostOps0 (F := Ideal)) Wv (Proc.devRef .tc main_v3) = nodeOut (Wv (Proc.devRef .tc main_arg1)) := by
  after_results_simp <;> rfl

/-- The edge weights. -/
theorem s0_edgeWeight : after (hostOps0 (F := Ideal)) Wv (Proc.devRef .tc main_v32) = edgeWeight (Wv (Proc.devRef .tc main_arg1)) := by
  after_results_simp <;> rfl

/-- The self weights. -/
theorem s0_selfWeight : after (hostOps0 (F := Ideal)) Wv (Proc.devRef .tc main_v36) = selfWeight (Wv (Proc.devRef .tc main_arg1)) := by
  after_results_simp <;> rfl

/-- The first aggregation. -/
theorem s0_agg : after (hostOps0 (F := Ideal)) Wv (Proc.devRef .tc main_v53) = agg128 (Wv (Proc.devRef .tc main_arg0)) (Wv (Proc.devRef .tc main_arg1)) := by
  after_results_simp <;> rfl

/-- The first bias as a row. -/
theorem s0_bias : after (hostOps0 (F := Ideal)) Wv (Proc.devRef .tc main_v54) = shapeCast S1x256 (Wv (Proc.devRef .tc main_arg5)) shapeCasts_S256_S1x256 := by
  after_results_simp <;> rfl

theorem s0_keep_arg2 : after (hostOps0 (F := Ideal)) Wv (Proc.devRef .tc main_arg2) = Wv (Proc.devRef .tc main_arg2) := by
  after_results_simp <;> rfl
theorem s0_keep_arg3 : after (hostOps0 (F := Ideal)) Wv (Proc.devRef .tc main_arg3) = Wv (Proc.devRef .tc main_arg3) := by
  after_results_simp <;> rfl
theorem s0_keep_arg4 : after (hostOps0 (F := Ideal)) Wv (Proc.devRef .tc main_arg4) = Wv (Proc.devRef .tc main_arg4) := by
  after_results_simp <;> rfl
theorem s0_keep_arg6 : after (hostOps0 (F := Ideal)) Wv (Proc.devRef .tc main_arg6) = Wv (Proc.devRef .tc main_arg6) := by
  after_results_simp <;> rfl
theorem s0_keep_arg7 : after (hostOps0 (F := Ideal)) Wv (Proc.devRef .tc main_arg7) = Wv (Proc.devRef .tc main_arg7) := by
  after_results_simp <;> rfl
theorem s0_keep_arg8 : after (hostOps0 (F := Ideal)) Wv (Proc.devRef .tc main_arg8) = Wv (Proc.devRef .tc main_arg8) := by
  after_results_simp <;> rfl
theorem s0_keep_arg9 : after (hostOps0 (F := Ideal)) Wv (Proc.devRef .tc main_arg9) = Wv (Proc.devRef .tc main_arg9) := by
  after_results_simp <;> rfl

/-! ## Between the first and second regions -/

/-- The second aggregation, of the first region's output. -/
theorem s1_agg : after (hostOps1 (F := Ideal)) Wv (Proc.devRef .tc main_v72) = agg256Of (Wv (Proc.devRef .tc main_v55)) (Wv (Proc.devRef .tc main_v1)) (Wv (Proc.devRef .tc main_v3)) (Wv (Proc.devRef .tc main_v32)) (Wv (Proc.devRef .tc main_v36)) := by
  after_results_simp <;> rfl

/-- The second bias as a row. -/
theorem s1_bias : after (hostOps1 (F := Ideal)) Wv (Proc.devRef .tc main_v73) = shapeCast S1x256 (Wv (Proc.devRef .tc main_arg7)) shapeCasts_S256_S1x256 := by
  after_results_simp <;> rfl

theorem s1_keep_v1 : after (hostOps1 (F := Ideal)) Wv (Proc.devRef .tc main_v1) = Wv (Proc.devRef .tc main_v1) := by
  after_results_simp <;> rfl
theorem s1_keep_v3 : after (hostOps1 (F := Ideal)) Wv (Proc.devRef .tc main_v3) = Wv (Proc.devRef .tc main_v3) := by
  after_results_simp <;> rfl
theorem s1_keep_v32 : after (hostOps1 (F := Ideal)) Wv (Proc.devRef .tc main_v32) = Wv (Proc.devRef .tc main_v32) := by
  after_results_simp <;> rfl
theorem s1_keep_v36 : after (hostOps1 (F := Ideal)) Wv (Proc.devRef .tc main_v36) = Wv (Proc.devRef .tc main_v36) := by
  after_results_simp <;> rfl
theorem s1_keep_arg2 : after (hostOps1 (F := Ideal)) Wv (Proc.devRef .tc main_arg2) = Wv (Proc.devRef .tc main_arg2) := by
  after_results_simp <;> rfl
theorem s1_keep_arg3 : after (hostOps1 (F := Ideal)) Wv (Proc.devRef .tc main_arg3) = Wv (Proc.devRef .tc main_arg3) := by
  after_results_simp <;> rfl
theorem s1_keep_arg6 : after (hostOps1 (F := Ideal)) Wv (Proc.devRef .tc main_arg6) = Wv (Proc.devRef .tc main_arg6) := by
  after_results_simp <;> rfl
theorem s1_keep_arg8 : after (hostOps1 (F := Ideal)) Wv (Proc.devRef .tc main_arg8) = Wv (Proc.devRef .tc main_arg8) := by
  after_results_simp <;> rfl
theorem s1_keep_arg9 : after (hostOps1 (F := Ideal)) Wv (Proc.devRef .tc main_arg9) = Wv (Proc.devRef .tc main_arg9) := by
  after_results_simp <;> rfl

/-! ## Between the second and third regions -/

/-- The third aggregation, of the second region's output. -/
theorem s2_agg : after (hostOps2 (F := Ideal)) Wv (Proc.devRef .tc main_v91) = agg256Of (Wv (Proc.devRef .tc main_v74)) (Wv (Proc.devRef .tc main_v1)) (Wv (Proc.devRef .tc main_v3)) (Wv (Proc.devRef .tc main_v32)) (Wv (Proc.devRef .tc main_v36)) := by
  after_results_simp <;> rfl

/-- The third bias as a row. -/
theorem s2_bias : after (hostOps2 (F := Ideal)) Wv (Proc.devRef .tc main_v92) = shapeCast S1x256 (Wv (Proc.devRef .tc main_arg9)) shapeCasts_S256_S1x256 := by
  after_results_simp <;> rfl

theorem s2_keep_arg2 : after (hostOps2 (F := Ideal)) Wv (Proc.devRef .tc main_arg2) = Wv (Proc.devRef .tc main_arg2) := by
  after_results_simp <;> rfl
theorem s2_keep_arg3 : after (hostOps2 (F := Ideal)) Wv (Proc.devRef .tc main_arg3) = Wv (Proc.devRef .tc main_arg3) := by
  after_results_simp <;> rfl
theorem s2_keep_arg8 : after (hostOps2 (F := Ideal)) Wv (Proc.devRef .tc main_arg8) = Wv (Proc.devRef .tc main_arg8) := by
  after_results_simp <;> rfl

/-! ## After the third region -/

/-- The residue means of the third region's output. -/
theorem s3_mean : after (hostOps3 (F := Ideal)) Wv (Proc.devRef .tc main_v104) = residueMean (Wv (Proc.devRef .tc main_v93)) (Wv (Proc.devRef .tc main_arg2)) := by
  after_results_simp <;> rfl

/-- The padding value's integer. -/
theorem s3_zero : after (hostOps3 (F := Ideal)) Wv (Proc.devRef .tc main_c_21) = constantI S_ 32 0#32 := by
  after_results_simp <;> rfl

theorem s3_keep_arg3 : after (hostOps3 (F := Ideal)) Wv (Proc.devRef .tc main_arg3) = Wv (Proc.devRef .tc main_arg3) := by
  after_results_simp <;> rfl

/-- The padding. -/
theorem s4_padded : after (hostOps3_1 (F := Ideal)) Wv (Proc.devRef .tc main_v105) = pad S8x1024x256 ![0, 0, 0] ![0, 512, 0] ![0, 0, 0] (Wv (Proc.devRef .tc main_v104)) (sitofp (F := Ideal) .f32 (Wv (Proc.devRef .tc main_c_21))) pads_S8x512x256_S8x1024x256_000_05120_000 h_S_ := by
  after_results_simp <;> rfl

theorem s4_keep_v104 : after (hostOps3_1 (F := Ideal)) Wv (Proc.devRef .tc main_v104) = Wv (Proc.devRef .tc main_v104) := by
  after_results_simp <;> rfl
theorem s4_keep_arg3 : after (hostOps3_1 (F := Ideal)) Wv (Proc.devRef .tc main_arg3) = Wv (Proc.devRef .tc main_arg3) := by
  after_results_simp <;> rfl

/-- The row pick. -/
theorem s5_picked : after (hostOps3_2 (F := Ideal)) Wv (Proc.devRef .tc main_v120) = picked (Wv (Proc.devRef .tc main_v104)) (Wv (Proc.devRef .tc main_arg3)) := by
  after_results_simp <;> rfl

theorem s5_keep_v105 : after (hostOps3_2 (F := Ideal)) Wv (Proc.devRef .tc main_v105) = Wv (Proc.devRef .tc main_v105) := by
  after_results_simp <;> rfl

end Cert.KernelIdeal.Host

end
-- ==== Proof.RefDense.lean ====
/-
  The host's dense layer is the dense layer.

  max(agg * W^T + b, 0) as the host spells it: transpose the weights, dot_general contracting the features' second axis
  against the transposed weights' first, broadcast the bias to a row and then down the rows, add, and take the maximum
  with a broadcast zero. Read at entry (p, q) every operation names which entries of its operands it uses, and the result is
  the sum over i of agg(p, i) * W(q, i), plus b(q), rectified.
-/
import proofs.«136707_j6055903887370_1_alg».proof.Proof.Stages
import proofs.«136707_j6055903887370_1_alg».proof.Proof.DenseSpec
import proofs.«136707_j6055903887370_1_alg».proof.Proof.LibContract
import Idealize.ShloMosaic.Lib.Pipeline.Value
import Idealize.ShloMosaic.Lib.ValueIdx
import Idealize.ShloMosaic.PureOps.Ideal.Laws

set_option maxRecDepth 16384

noncomputable section

namespace Cert.Gcn

open Idealize.ShloMosaic Idealize.ShloMosaic.ValueIdx Cert.ReferenceIdeal Cert.ReferenceIdeal.Gen
open scoped BigOperators

/-- The left operand of the 128-wide contraction is read in the output's row. -/
theorem lhsRow128 (j : S32768x256.Idx) (c : dot_S32768x128_S128x256_S32768x256_1_0_0_1_n_n.contr.Idx) : (dot_S32768x128_S128x256_S32768x256_1_0_0_1_n_n.lhsIdx j c 0).val = (j 0).val := by
  unfold DotDims.lhsIdx
  rw [dif_neg (show ¬(0 : Fin S32768x128.rank) ∈ dot_S32768x128_S128x256_S32768x256_1_0_0_1_n_n.lhsBatch by decide),
    dif_pos (show (0 : Fin S32768x128.rank) ∈ dot_S32768x128_S128x256_S32768x256_1_0_0_1_n_n.lhsNonContracting by decide)]
  rfl

/-- The right operand of the 128-wide contraction is read in the output's column. -/
theorem rhsCol128 (j : S32768x256.Idx) (c : dot_S32768x128_S128x256_S32768x256_1_0_0_1_n_n.contr.Idx) : (dot_S32768x128_S128x256_S32768x256_1_0_0_1_n_n.rhsIdx j c 1).val = (j 1).val := by
  unfold DotDims.rhsIdx
  rw [dif_neg (show ¬(1 : Fin S128x256.rank) ∈ dot_S32768x128_S128x256_S32768x256_1_0_0_1_n_n.rhsBatch by decide),
    dif_pos (show (1 : Fin S128x256.rank) ∈ dot_S32768x128_S128x256_S32768x256_1_0_0_1_n_n.rhsNonContracting by decide)]
  rfl

/-- The host's layer on 128-wide features, entry by entry: the dot_general contracts the features' columns against the
    rows of the transposed weights, which are the weights' columns; the bias row is broadcast down the rows; the zero is
    broadcast everywhere. -/
theorem hostLayer128_eq (a : Arr S32768x128 .f32) (w : Arr S256x128 .f32) (b : Arr S256 .f32) :
    hostLayer128 a w b = dense a w b := by
  funext j
  obtain ⟨p, q, rfl⟩ : ∃ (p : Fin 32768) (q : Fin 256), j = ix2 p q := ⟨j 0, j 1, eq_ix2 j⟩
  rw [dense_apply]
  unfold hostLayer128 denseEntry
  have hdot : Host.dotGeneral (F := Ideal) (φ₁ := .f32) (φ₂ := .f32) dot_S32768x128_S128x256_S32768x256_1_0_0_1_n_n none a
        (transpose S128x256 [1, 0] w transposes_S256x128_S128x256_1_0) (ix2 p q)
      = ∑ i : Fin 128, a (ix2 p i) * w (ix2 q i) := by
    simp only [Host.dotGeneral]
    refine (Cert.LibContract.dotGeneral_apply dot_S32768x128_S128x256_S32768x256_1_0_0_1_n_n 128 rfl rfl none _ a
      (transpose S128x256 [1, 0] w transposes_S256x128_S128x256_1_0) (ix2 p q) (fun i => ix2 p i) (fun i => ix2 i q) ?_ ?_).trans ?_
    · intro c i hc
      refine funext fun d => Fin.ext ?_
      match d with
      | ⟨0, _⟩ => exact lhsRow128 (ix2 p q) c
      | ⟨1, _⟩ => exact (dot_S32768x128_S128x256_S32768x256_1_0_0_1_n_n.lhsIdx_val_of_single rfl (ix2 p q) c).trans hc
    · intro c i hc
      refine funext fun d => Fin.ext ?_
      match d with
      | ⟨0, _⟩ => exact (dot_S32768x128_S128x256_S32768x256_1_0_0_1_n_n.rhsIdx_val_of_single rfl (ix2 p q) c).trans hc
      | ⟨1, _⟩ => exact rhsCol128 (ix2 p q) c
    · refine Finset.sum_congr rfl fun i _ => ?_
      rw [transpose_apply [1, 0] w transposes_S256x128_S128x256_1_0 (ix2 i q) (ix2 q i) (fun d => match d with
        | ⟨0, _⟩ => rfl
        | ⟨1, _⟩ => rfl)]
  have hbias : broadcastInDim S32768x256 ![0, 1] bcast_S1x256_S32768x256_0_1 (broadcastInDim S1x256 ![1] bcast_S256_S1x256_1 b) (ix2 p q)
      = b (ix1 q) := by
    rw [broadcastInDim_apply _ bcast_S1x256_S32768x256_0_1 _ (ix2 p q) (ix2 (0 : Fin 1) q) (fun d => match d with
        | ⟨0, _⟩ => by show 0 = if (1 : Nat) = 1 then 0 else p.val; rw [if_pos rfl]
        | ⟨1, _⟩ => by show q.val = if (256 : Nat) = 1 then 0 else q.val; rw [if_neg (by decide)]),
      broadcastInDim_apply _ bcast_S256_S1x256_1 b (ix2 (0 : Fin 1) q) (ix1 q) (fun d => match d with
        | ⟨0, _⟩ => by show q.val = if (256 : Nat) = 1 then 0 else q.val; rw [if_neg (by decide)])]
  have hzero : broadcastInDim S32768x256 ![] bcast_S_S32768x256 (constant (F := Ideal) S_ .f32 0x00000000#32) (ix2 p q)
      = Ideal.ofBits .f32 0x00000000#32 := by
    rw [broadcastInDim_apply _ bcast_S_S32768x256 _ (ix2 p q) ix0 (fun d => d.elim0)]
    rfl
  show max (_ + _) _ = _
  rw [hdot, hbias, hzero]

/-- The left operand of the 256-wide contraction is read in the output's row. -/
theorem lhsRow256 (j : S32768x256.Idx) (c : dot_S32768x256_S256x256_S32768x256_1_0_0_1_n_n.contr.Idx) : (dot_S32768x256_S256x256_S32768x256_1_0_0_1_n_n.lhsIdx j c 0).val = (j 0).val := by
  unfold DotDims.lhsIdx
  rw [dif_neg (show ¬(0 : Fin S32768x256.rank) ∈ dot_S32768x256_S256x256_S32768x256_1_0_0_1_n_n.lhsBatch by decide),
    dif_pos (show (0 : Fin S32768x256.rank) ∈ dot_S32768x256_S256x256_S32768x256_1_0_0_1_n_n.lhsNonContracting by decide)]
  rfl

/-- The right operand of the 256-wide contraction is read in the output's column. -/
theorem rhsCol256 (j : S32768x256.Idx) (c : dot_S32768x256_S256x256_S32768x256_1_0_0_1_n_n.contr.Idx) : (dot_S32768x256_S256x256_S32768x256_1_0_0_1_n_n.rhsIdx j c 1).val = (j 1).val := by
  unfold DotDims.rhsIdx
  rw [dif_neg (show ¬(1 : Fin S256x256.rank) ∈ dot_S32768x256_S256x256_S32768x256_1_0_0_1_n_n.rhsBatch by decide),
    dif_pos (show (1 : Fin S256x256.rank) ∈ dot_S32768x256_S256x256_S32768x256_1_0_0_1_n_n.rhsNonContracting by decide)]
  rfl

/-- The host's layer on 256-wide features, entry by entry: the dot_general contracts the features' columns against the
    rows of the transposed weights, which are the weights' columns; the bias row is broadcast down the rows; the zero is
    broadcast everywhere. -/
theorem hostLayer256_eq (a : Arr S32768x256 .f32) (w : Arr S256x256 .f32) (b : Arr S256 .f32) :
    hostLayer256 a w b = dense a w b := by
  funext j
  obtain ⟨p, q, rfl⟩ : ∃ (p : Fin 32768) (q : Fin 256), j = ix2 p q := ⟨j 0, j 1, eq_ix2 j⟩
  rw [dense_apply]
  unfold hostLayer256 denseEntry
  have hdot : Host.dotGeneral (F := Ideal) (φ₁ := .f32) (φ₂ := .f32) dot_S32768x256_S256x256_S32768x256_1_0_0_1_n_n none a
        (transpose S256x256 [1, 0] w transposes_S256x256_S256x256_1_0) (ix2 p q)
      = ∑ i : Fin 256, a (ix2 p i) * w (ix2 q i) := by
    simp only [Host.dotGeneral]
    refine (Cert.LibContract.dotGeneral_apply dot_S32768x256_S256x256_S32768x256_1_0_0_1_n_n 256 rfl rfl none _ a
      (transpose S256x256 [1, 0] w transposes_S256x256_S256x256_1_0) (ix2 p q) (fun i => ix2 p i) (fun i => ix2 i q) ?_ ?_).trans ?_
    · intro c i hc
      refine funext fun d => Fin.ext ?_
      match d with
      | ⟨0, _⟩ => exact lhsRow256 (ix2 p q) c
      | ⟨1, _⟩ => exact (dot_S32768x256_S256x256_S32768x256_1_0_0_1_n_n.lhsIdx_val_of_single rfl (ix2 p q) c).trans hc
    · intro c i hc
      refine funext fun d => Fin.ext ?_
      match d with
      | ⟨0, _⟩ => exact (dot_S32768x256_S256x256_S32768x256_1_0_0_1_n_n.rhsIdx_val_of_single rfl (ix2 p q) c).trans hc
      | ⟨1, _⟩ => exact rhsCol256 (ix2 p q) c
    · refine Finset.sum_congr rfl fun i _ => ?_
      rw [transpose_apply [1, 0] w transposes_S256x256_S256x256_1_0 (ix2 i q) (ix2 q i) (fun d => match d with
        | ⟨0, _⟩ => rfl
        | ⟨1, _⟩ => rfl)]
  have hbias : broadcastInDim S32768x256 ![0, 1] bcast_S1x256_S32768x256_0_1 (broadcastInDim S1x256 ![1] bcast_S256_S1x256_1 b) (ix2 p q)
      = b (ix1 q) := by
    rw [broadcastInDim_apply _ bcast_S1x256_S32768x256_0_1 _ (ix2 p q) (ix2 (0 : Fin 1) q) (fun d => match d with
        | ⟨0, _⟩ => by show 0 = if (1 : Nat) = 1 then 0 else p.val; rw [if_pos rfl]
        | ⟨1, _⟩ => by show q.val = if (256 : Nat) = 1 then 0 else q.val; rw [if_neg (by decide)]),
      broadcastInDim_apply _ bcast_S256_S1x256_1 b (ix2 (0 : Fin 1) q) (ix1 q) (fun d => match d with
        | ⟨0, _⟩ => by show q.val = if (256 : Nat) = 1 then 0 else q.val; rw [if_neg (by decide)])]
  have hzero : broadcastInDim S32768x256 ![] bcast_S_S32768x256 (constant (F := Ideal) S_ .f32 0x00000000#32) (ix2 p q)
      = Ideal.ofBits .f32 0x00000000#32 := by
    rw [broadcastInDim_apply _ bcast_S_S32768x256 _ (ix2 p q) ix0 (fun d => d.elim0)]
    rfl
  show max (_ + _) _ = _
  rw [hdot, hbias, hzero]

end Cert.Gcn

end
-- ==== Proof.KValue.lean ====
/-
  The kernel program's results as the network with the host's dense layers.

  The buffers' contents after the run are a fold through nine segments. Walking the fold boundary by boundary: a host
  stretch leaves named stages of what it reads; a region leaves, in its output array, the dense layer of the three arrays
  it is entered with, and every other buffer as it was. The kernel's dense layer takes its bias as a one-row matrix,
  which the host made by casting the bias; read at an entry the cast row is the bias, so the region's output is the
  dense layer of the bias itself, and that is the host's spelling of the layer. At the end the two result buffers hold
  the row pick and the padding of the residue means of the network with the host's layers.
-/
import proofs.«136707_j6055903887370_1_alg».proof.Proof.KRun
import proofs.«136707_j6055903887370_1_alg».proof.Proof.KLayer
import proofs.«136707_j6055903887370_1_alg».proof.Proof.KHost
import proofs.«136707_j6055903887370_1_alg».proof.Proof.RefDense
import Idealize.ShloMosaic.Lib.ValueLayout

set_option maxRecDepth 16384

noncomputable section

namespace Cert.KernelIdeal.Folded

open Idealize.ShloMosaic Idealize.ShloMosaic.TcCoe Idealize.ShloMosaic.ValueIdx
open Idealize.SL Idealize.SL.Sem
open Cert.KernelIdeal Cert.KernelIdeal.Gen Cert.KernelIdeal.Layer Cert.KernelIdeal.Host Cert.Gcn

/-- The dense layer with its bias cast to a one-row matrix is the dense layer of the bias: the cast row's entry q is
    the bias's entry q. -/
theorem denseRow_cast {K : ℕ} (a : FVec Ideal ⟨2, ![32768, K]⟩ .f32) (w : FVec Ideal ⟨2, ![256, K]⟩ .f32)
    (b : FVec Ideal ⟨1, ![256]⟩ .f32) (h : (⟨1, ![256]⟩ : Shape).ShapeCasts ⟨2, ![1, 256]⟩) :
    denseRow a w (shapeCast ⟨2, ![1, 256]⟩ b h) = dense a w b := by
  unfold denseRow
  refine congrArg (dense a w) (funext fun i => ?_)
  exact (shapeCast_a_1a_apply b h 0 (i 0)).trans (congrArg b (eq_ix1 i).symm)

variable (m : (ℓ : Loc nD τ sig) → Buf (Elt Ideal) ℓ) (ρ : Dev nD → PrngReg) (c : Dev nD)

theorem w1_v1 : W1 (F := Ideal) m ρ c (Proc.devRef .tc main_v1) = nodeIn (m ((c : Thread nD τ).loc main_arg1)) :=
  s0_nodeIn (W0 m ρ c)
theorem w1_v3 : W1 (F := Ideal) m ρ c (Proc.devRef .tc main_v3) = nodeOut (m ((c : Thread nD τ).loc main_arg1)) :=
  s0_nodeOut (W0 m ρ c)
theorem w1_v32 : W1 (F := Ideal) m ρ c (Proc.devRef .tc main_v32) = edgeWeight (m ((c : Thread nD τ).loc main_arg1)) :=
  s0_edgeWeight (W0 m ρ c)
theorem w1_v36 : W1 (F := Ideal) m ρ c (Proc.devRef .tc main_v36) = selfWeight (m ((c : Thread nD τ).loc main_arg1)) :=
  s0_selfWeight (W0 m ρ c)
theorem w1_v53 : W1 (F := Ideal) m ρ c (Proc.devRef .tc main_v53) = agg128 (m ((c : Thread nD τ).loc main_arg0)) (m ((c : Thread nD τ).loc main_arg1)) :=
  s0_agg (W0 m ρ c)
theorem w1_v54 : W1 (F := Ideal) m ρ c (Proc.devRef .tc main_v54) = shapeCast S1x256 (m ((c : Thread nD τ).loc main_arg5)) shapeCasts_S256_S1x256 :=
  s0_bias (W0 m ρ c)
theorem w1_arg2 : W1 (F := Ideal) m ρ c (Proc.devRef .tc main_arg2) = m ((c : Thread nD τ).loc main_arg2) :=
  s0_keep_arg2 (W0 m ρ c)
theorem w1_arg3 : W1 (F := Ideal) m ρ c (Proc.devRef .tc main_arg3) = m ((c : Thread nD τ).loc main_arg3) :=
  s0_keep_arg3 (W0 m ρ c)
theorem w1_arg4 : W1 (F := Ideal) m ρ c (Proc.devRef .tc main_arg4) = m ((c : Thread nD τ).loc main_arg4) :=
  s0_keep_arg4 (W0 m ρ c)
theorem w1_arg6 : W1 (F := Ideal) m ρ c (Proc.devRef .tc main_arg6) = m ((c : Thread nD τ).loc main_arg6) :=
  s0_keep_arg6 (W0 m ρ c)
theorem w1_arg7 : W1 (F := Ideal) m ρ c (Proc.devRef .tc main_arg7) = m ((c : Thread nD τ).loc main_arg7) :=
  s0_keep_arg7 (W0 m ρ c)
theorem w1_arg8 : W1 (F := Ideal) m ρ c (Proc.devRef .tc main_arg8) = m ((c : Thread nD τ).loc main_arg8) :=
  s0_keep_arg8 (W0 m ρ c)
theorem w1_arg9 : W1 (F := Ideal) m ρ c (Proc.devRef .tc main_arg9) = m ((c : Thread nD τ).loc main_arg9) :=
  s0_keep_arg9 (W0 m ρ c)
/-- The first region leaves the host's dense layer of what it was entered with: the block-by-block dense layer, its bias row
    being the bias cast to one row. -/
theorem w2_v55 : W2 (F := Ideal) m ρ c (Proc.devRef .tc main_v55) = (hostLayer128 (agg128 (m ((c : Thread nD τ).loc main_arg0)) (m ((c : Thread nD τ).loc main_arg1))) (m ((c : Thread nD τ).loc main_arg4)) (m ((c : Thread nD τ).loc main_arg5))) := by
  refine (W2_arr m ρ c 3).trans ((final0 (V1 m ρ) c).trans ?_)
  show denseRow (W1 (F := Ideal) m ρ c (Proc.devRef .tc main_v53)) (W1 (F := Ideal) m ρ c (Proc.devRef .tc main_arg4)) (W1 (F := Ideal) m ρ c (Proc.devRef .tc main_v54)) = _
  rw [w1_v53, w1_arg4, w1_v54, denseRow_cast, ← hostLayer128_eq]
theorem w2_v1 : W2 (F := Ideal) m ρ c (Proc.devRef .tc main_v1) = nodeIn (m ((c : Thread nD τ).loc main_arg1)) :=
  (W2_of_ne m ρ c main_v1 (by decide)).trans (w1_v1 m ρ c)
theorem w2_v3 : W2 (F := Ideal) m ρ c (Proc.devRef .tc main_v3) = nodeOut (m ((c : Thread nD τ).loc main_arg1)) :=
  (W2_of_ne m ρ c main_v3 (by decide)).trans (w1_v3 m ρ c)
theorem w2_v32 : W2 (F := Ideal) m ρ c (Proc.devRef .tc main_v32) = edgeWeight (m ((c : Thread nD τ).loc main_arg1)) :=
  (W2_of_ne m ρ c main_v32 (by decide)).trans (w1_v32 m ρ c)
theorem w2_v36 : W2 (F := Ideal) m ρ c (Proc.devRef .tc main_v36) = selfWeight (m ((c : Thread nD τ).loc main_arg1)) :=
  (W2_of_ne m ρ c main_v36 (by decide)).trans (w1_v36 m ρ c)
theorem w2_arg2 : W2 (F := Ideal) m ρ c (Proc.devRef .tc main_arg2) = m ((c : Thread nD τ).loc main_arg2) :=
  (W2_of_ne m ρ c main_arg2 (by decide)).trans (w1_arg2 m ρ c)
theorem w2_arg3 : W2 (F := Ideal) m ρ c (Proc.devRef .tc main_arg3) = m ((c : Thread nD τ).loc main_arg3) :=
  (W2_of_ne m ρ c main_arg3 (by decide)).trans (w1_arg3 m ρ c)
theorem w2_arg6 : W2 (F := Ideal) m ρ c (Proc.devRef .tc main_arg6) = m ((c : Thread nD τ).loc main_arg6) :=
  (W2_of_ne m ρ c main_arg6 (by decide)).trans (w1_arg6 m ρ c)
theorem w2_arg7 : W2 (F := Ideal) m ρ c (Proc.devRef .tc main_arg7) = m ((c : Thread nD τ).loc main_arg7) :=
  (W2_of_ne m ρ c main_arg7 (by decide)).trans (w1_arg7 m ρ c)
theorem w2_arg8 : W2 (F := Ideal) m ρ c (Proc.devRef .tc main_arg8) = m ((c : Thread nD τ).loc main_arg8) :=
  (W2_of_ne m ρ c main_arg8 (by decide)).trans (w1_arg8 m ρ c)
theorem w2_arg9 : W2 (F := Ideal) m ρ c (Proc.devRef .tc main_arg9) = m ((c : Thread nD τ).loc main_arg9) :=
  (W2_of_ne m ρ c main_arg9 (by decide)).trans (w1_arg9 m ρ c)
theorem w3_v72 : W3 (F := Ideal) m ρ c (Proc.devRef .tc main_v72) = agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1)) := by
  refine (s1_agg (W2 m ρ c)).trans ?_
  rw [w2_v55, w2_v1, w2_v3, w2_v32, w2_v36]; rfl
theorem w3_v73 : W3 (F := Ideal) m ρ c (Proc.devRef .tc main_v73) = shapeCast S1x256 (m ((c : Thread nD τ).loc main_arg7)) shapeCasts_S256_S1x256 := by
  refine (s1_bias (W2 m ρ c)).trans ?_
  rw [w2_arg7]
theorem w3_v1 : W3 (F := Ideal) m ρ c (Proc.devRef .tc main_v1) = nodeIn (m ((c : Thread nD τ).loc main_arg1)) :=
  (s1_keep_v1 (W2 m ρ c)).trans (w2_v1 m ρ c)
theorem w3_v3 : W3 (F := Ideal) m ρ c (Proc.devRef .tc main_v3) = nodeOut (m ((c : Thread nD τ).loc main_arg1)) :=
  (s1_keep_v3 (W2 m ρ c)).trans (w2_v3 m ρ c)
theorem w3_v32 : W3 (F := Ideal) m ρ c (Proc.devRef .tc main_v32) = edgeWeight (m ((c : Thread nD τ).loc main_arg1)) :=
  (s1_keep_v32 (W2 m ρ c)).trans (w2_v32 m ρ c)
theorem w3_v36 : W3 (F := Ideal) m ρ c (Proc.devRef .tc main_v36) = selfWeight (m ((c : Thread nD τ).loc main_arg1)) :=
  (s1_keep_v36 (W2 m ρ c)).trans (w2_v36 m ρ c)
theorem w3_arg2 : W3 (F := Ideal) m ρ c (Proc.devRef .tc main_arg2) = m ((c : Thread nD τ).loc main_arg2) :=
  (s1_keep_arg2 (W2 m ρ c)).trans (w2_arg2 m ρ c)
theorem w3_arg3 : W3 (F := Ideal) m ρ c (Proc.devRef .tc main_arg3) = m ((c : Thread nD τ).loc main_arg3) :=
  (s1_keep_arg3 (W2 m ρ c)).trans (w2_arg3 m ρ c)
theorem w3_arg6 : W3 (F := Ideal) m ρ c (Proc.devRef .tc main_arg6) = m ((c : Thread nD τ).loc main_arg6) :=
  (s1_keep_arg6 (W2 m ρ c)).trans (w2_arg6 m ρ c)
theorem w3_arg8 : W3 (F := Ideal) m ρ c (Proc.devRef .tc main_arg8) = m ((c : Thread nD τ).loc main_arg8) :=
  (s1_keep_arg8 (W2 m ρ c)).trans (w2_arg8 m ρ c)
theorem w3_arg9 : W3 (F := Ideal) m ρ c (Proc.devRef .tc main_arg9) = m ((c : Thread nD τ).loc main_arg9) :=
  (s1_keep_arg9 (W2 m ρ c)).trans (w2_arg9 m ρ c)
/-- The second region leaves the host's dense layer of what it was entered with: the block-by-block dense layer, its bias row
    being the bias cast to one row. -/
theorem w4_v74 : W4 (F := Ideal) m ρ c (Proc.devRef .tc main_v74) = (hostLayer256 (agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1))) (m ((c : Thread nD τ).loc main_arg6)) (m ((c : Thread nD τ).loc main_arg7))) := by
  refine (W4_arr m ρ c 3).trans ((final1 (V3 m ρ) c).trans ?_)
  show denseRow (W3 (F := Ideal) m ρ c (Proc.devRef .tc main_v72)) (W3 (F := Ideal) m ρ c (Proc.devRef .tc main_arg6)) (W3 (F := Ideal) m ρ c (Proc.devRef .tc main_v73)) = _
  rw [w3_v72, w3_arg6, w3_v73, denseRow_cast, ← hostLayer256_eq]
theorem w4_v1 : W4 (F := Ideal) m ρ c (Proc.devRef .tc main_v1) = nodeIn (m ((c : Thread nD τ).loc main_arg1)) :=
  (W4_of_ne m ρ c main_v1 (by decide)).trans (w3_v1 m ρ c)
theorem w4_v3 : W4 (F := Ideal) m ρ c (Proc.devRef .tc main_v3) = nodeOut (m ((c : Thread nD τ).loc main_arg1)) :=
  (W4_of_ne m ρ c main_v3 (by decide)).trans (w3_v3 m ρ c)
theorem w4_v32 : W4 (F := Ideal) m ρ c (Proc.devRef .tc main_v32) = edgeWeight (m ((c : Thread nD τ).loc main_arg1)) :=
  (W4_of_ne m ρ c main_v32 (by decide)).trans (w3_v32 m ρ c)
theorem w4_v36 : W4 (F := Ideal) m ρ c (Proc.devRef .tc main_v36) = selfWeight (m ((c : Thread nD τ).loc main_arg1)) :=
  (W4_of_ne m ρ c main_v36 (by decide)).trans (w3_v36 m ρ c)
theorem w4_arg2 : W4 (F := Ideal) m ρ c (Proc.devRef .tc main_arg2) = m ((c : Thread nD τ).loc main_arg2) :=
  (W4_of_ne m ρ c main_arg2 (by decide)).trans (w3_arg2 m ρ c)
theorem w4_arg3 : W4 (F := Ideal) m ρ c (Proc.devRef .tc main_arg3) = m ((c : Thread nD τ).loc main_arg3) :=
  (W4_of_ne m ρ c main_arg3 (by decide)).trans (w3_arg3 m ρ c)
theorem w4_arg8 : W4 (F := Ideal) m ρ c (Proc.devRef .tc main_arg8) = m ((c : Thread nD τ).loc main_arg8) :=
  (W4_of_ne m ρ c main_arg8 (by decide)).trans (w3_arg8 m ρ c)
theorem w4_arg9 : W4 (F := Ideal) m ρ c (Proc.devRef .tc main_arg9) = m ((c : Thread nD τ).loc main_arg9) :=
  (W4_of_ne m ρ c main_arg9 (by decide)).trans (w3_arg9 m ρ c)
theorem w5_v91 : W5 (F := Ideal) m ρ c (Proc.devRef .tc main_v91) = agg256 (hostLayer256 (agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1))) (m ((c : Thread nD τ).loc main_arg6)) (m ((c : Thread nD τ).loc main_arg7))) (m ((c : Thread nD τ).loc main_arg1)) := by
  refine (s2_agg (W4 m ρ c)).trans ?_
  rw [w4_v74, w4_v1, w4_v3, w4_v32, w4_v36]; rfl
theorem w5_v92 : W5 (F := Ideal) m ρ c (Proc.devRef .tc main_v92) = shapeCast S1x256 (m ((c : Thread nD τ).loc main_arg9)) shapeCasts_S256_S1x256 := by
  refine (s2_bias (W4 m ρ c)).trans ?_
  rw [w4_arg9]
theorem w5_arg2 : W5 (F := Ideal) m ρ c (Proc.devRef .tc main_arg2) = m ((c : Thread nD τ).loc main_arg2) :=
  (s2_keep_arg2 (W4 m ρ c)).trans (w4_arg2 m ρ c)
theorem w5_arg3 : W5 (F := Ideal) m ρ c (Proc.devRef .tc main_arg3) = m ((c : Thread nD τ).loc main_arg3) :=
  (s2_keep_arg3 (W4 m ρ c)).trans (w4_arg3 m ρ c)
theorem w5_arg8 : W5 (F := Ideal) m ρ c (Proc.devRef .tc main_arg8) = m ((c : Thread nD τ).loc main_arg8) :=
  (s2_keep_arg8 (W4 m ρ c)).trans (w4_arg8 m ρ c)
/-- The third region leaves the host's dense layer of what it was entered with: the block-by-block dense layer, its bias row
    being the bias cast to one row. -/
theorem w6_v93 : W6 (F := Ideal) m ρ c (Proc.devRef .tc main_v93) = (hostLayer256 (agg256 (hostLayer256 (agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1))) (m ((c : Thread nD τ).loc main_arg6)) (m ((c : Thread nD τ).loc main_arg7))) (m ((c : Thread nD τ).loc main_arg1))) (m ((c : Thread nD τ).loc main_arg8)) (m ((c : Thread nD τ).loc main_arg9))) := by
  refine (W6_arr m ρ c 3).trans ((final2 (V5 m ρ) c).trans ?_)
  show denseRow (W5 (F := Ideal) m ρ c (Proc.devRef .tc main_v91)) (W5 (F := Ideal) m ρ c (Proc.devRef .tc main_arg8)) (W5 (F := Ideal) m ρ c (Proc.devRef .tc main_v92)) = _
  rw [w5_v91, w5_arg8, w5_v92, denseRow_cast, ← hostLayer256_eq]
theorem w6_arg2 : W6 (F := Ideal) m ρ c (Proc.devRef .tc main_arg2) = m ((c : Thread nD τ).loc main_arg2) :=
  (W6_of_ne m ρ c main_arg2 (by decide)).trans (w5_arg2 m ρ c)
theorem w6_arg3 : W6 (F := Ideal) m ρ c (Proc.devRef .tc main_arg3) = m ((c : Thread nD τ).loc main_arg3) :=
  (W6_of_ne m ρ c main_arg3 (by decide)).trans (w5_arg3 m ρ c)
theorem w7_v104 : W7 (F := Ideal) m ρ c (Proc.devRef .tc main_v104) = (residueMean (hostLayer256 (agg256 (hostLayer256 (agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1))) (m ((c : Thread nD τ).loc main_arg6)) (m ((c : Thread nD τ).loc main_arg7))) (m ((c : Thread nD τ).loc main_arg1))) (m ((c : Thread nD τ).loc main_arg8)) (m ((c : Thread nD τ).loc main_arg9))) (m ((c : Thread nD τ).loc main_arg2))) := by
  refine (s3_mean (W6 m ρ c)).trans ?_
  rw [w6_v93, w6_arg2]
theorem w7_c_21 : W7 (F := Ideal) m ρ c (Proc.devRef .tc main_c_21) = constantI S_ 32 0#32 :=
  s3_zero (W6 m ρ c)
theorem w7_arg3 : W7 (F := Ideal) m ρ c (Proc.devRef .tc main_arg3) = m ((c : Thread nD τ).loc main_arg3) :=
  (s3_keep_arg3 (W6 m ρ c)).trans (w6_arg3 m ρ c)
theorem w8_v105 : W8 (F := Ideal) m ρ c (Proc.devRef .tc main_v105) = padded (residueMean (hostLayer256 (agg256 (hostLayer256 (agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1))) (m ((c : Thread nD τ).loc main_arg6)) (m ((c : Thread nD τ).loc main_arg7))) (m ((c : Thread nD τ).loc main_arg1))) (m ((c : Thread nD τ).loc main_arg8)) (m ((c : Thread nD τ).loc main_arg9))) (m ((c : Thread nD τ).loc main_arg2))) := by
  refine (s4_padded (W7 m ρ c)).trans ?_
  rw [w7_v104, w7_c_21]; rfl
theorem w8_v104 : W8 (F := Ideal) m ρ c (Proc.devRef .tc main_v104) = (residueMean (hostLayer256 (agg256 (hostLayer256 (agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1))) (m ((c : Thread nD τ).loc main_arg6)) (m ((c : Thread nD τ).loc main_arg7))) (m ((c : Thread nD τ).loc main_arg1))) (m ((c : Thread nD τ).loc main_arg8)) (m ((c : Thread nD τ).loc main_arg9))) (m ((c : Thread nD τ).loc main_arg2))) :=
  (s4_keep_v104 (W7 m ρ c)).trans (w7_v104 m ρ c)
theorem w8_arg3 : W8 (F := Ideal) m ρ c (Proc.devRef .tc main_arg3) = m ((c : Thread nD τ).loc main_arg3) :=
  (s4_keep_arg3 (W7 m ρ c)).trans (w7_arg3 m ρ c)
/-- The first result: each graph's residue row at its position, of the network with the host's dense layers. -/
theorem w9_v120 : W9 (F := Ideal) m ρ c (Proc.devRef .tc main_v120) = picked (residueMean (hostLayer256 (agg256 (hostLayer256 (agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1))) (m ((c : Thread nD τ).loc main_arg6)) (m ((c : Thread nD τ).loc main_arg7))) (m ((c : Thread nD τ).loc main_arg1))) (m ((c : Thread nD τ).loc main_arg8)) (m ((c : Thread nD τ).loc main_arg9))) (m ((c : Thread nD τ).loc main_arg2))) (m ((c : Thread nD τ).loc main_arg3)) := by
  refine (s5_picked (W8 m ρ c)).trans ?_
  rw [w8_v104, w8_arg3]
/-- The second result: the padded residue means of the network with the host's dense layers. -/
theorem w9_v105 : W9 (F := Ideal) m ρ c (Proc.devRef .tc main_v105) = padded (residueMean (hostLayer256 (agg256 (hostLayer256 (agg256 (hostLayer128 (agg128 (m ((c : Thread nD τ).loc main_arg0)) (m ((c : Thread nD τ).loc main_arg1))) (m ((c : Thread nD τ).loc main_arg4)) (m ((c : Thread nD τ).loc main_arg5))) (m ((c : Thread nD τ).loc main_arg1))) (m ((c : Thread nD τ).loc main_arg6)) (m ((c : Thread nD τ).loc main_arg7))) (m ((c : Thread nD τ).loc main_arg1))) (m ((c : Thread nD τ).loc main_arg8)) (m ((c : Thread nD τ).loc main_arg9))) (m ((c : Thread nD τ).loc main_arg2))) :=
  (s5_keep_v105 (W8 m ρ c)).trans (w8_v105 m ρ c)

end Cert.KernelIdeal.Folded

end
-- ==== Proof.lean ====
/-
  A three-layer graph convolutional network, its dense layers on the TensorCore, against the same network in plain
  array operations.

  Both programs take node features [32768,128], an edge list, a residue number per node, a position per graph and three
  weight matrices with biases. Both compute the degrees, the edge and self weights, and three rounds of "aggregate
  over the graph, then max(agg * W^T + b, 0)", then the per-residue means, returned padded per graph and with one row
  per graph picked. The kernel program runs each dense layer as a region over sixteen blocks of 2048 rows (the matrix
  unit contracting the second axis of the features and of the weights, after a change of float format that is the
  identity at the extended reals); the reference transposes the weights and uses one dot_general. Entry (p, q) of either
  layer is the sum over i of agg(p, i) * W(q, i), plus b(q), rectified: the same sum in the same order, so the two layers
  are one function and no law of arithmetic, hence no finiteness of the inputs, is used. Every other operation is the
  same host operation in the two programs.

  The frames of the two kernel programs are the generated ones; the reference's frame is its generated run. The
  idealization rewrote nothing, so there is nothing to preserve. For the value claim the kernel program is run as its
  nine segments with every buffer named after the run (KRun), its regions' outputs are read off the blocks (KPay,
  KLayer), its host stretches are identified with named stages (Stages, KHost), and the walk through the segments gives
  the results (KValue); the reference's generated reading is identified with the same stages (RefStages) and its dense
  layer with the same function (DenseSpec, RefDense).
-/
import proofs.«136707_j6055903887370_1_alg».proof.Defs
import proofs.«136707_j6055903887370_1_alg».proof.Proof.Gen.Kernel
import proofs.«136707_j6055903887370_1_alg».proof.Proof.Gen.Kernel.Skeleton
import proofs.«136707_j6055903887370_1_alg».proof.Proof.Gen.Kernel.Launch
import proofs.«136707_j6055903887370_1_alg».proof.Proof.Gen.Kernel.Points
import proofs.«136707_j6055903887370_1_alg».proof.Proof.Gen.Kernel.Frame
import proofs.«136707_j6055903887370_1_alg».proof.Proof.Gen.KernelIdeal
import proofs.«136707_j6055903887370_1_alg».proof.Proof.Gen.KernelIdeal.Skeleton
import proofs.«136707_j6055903887370_1_alg».proof.Proof.Gen.KernelIdeal.Launch
import proofs.«136707_j6055903887370_1_alg».proof.Proof.Gen.KernelIdeal.Points
import proofs.«136707_j6055903887370_1_alg».proof.Proof.Gen.KernelIdeal.Frame
import proofs.«136707_j6055903887370_1_alg».proof.Proof.Gen.ReferenceIdeal
import proofs.«136707_j6055903887370_1_alg».proof.Proof.Gen.ReferenceIdeal.Run
import proofs.«136707_j6055903887370_1_alg».proof.Proof.Gen.ReferenceIdeal.Read
import proofs.«136707_j6055903887370_1_alg».proof.Proof.Gen.Pre_finite_inputs
import proofs.«136707_j6055903887370_1_alg».proof.Proof.RefStages
import proofs.«136707_j6055903887370_1_alg».proof.Proof.KValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the row pick and the padding of the residue means of the network whose dense layers are
    the host's: the kernel program by the walk through its segments, the reference by its generated reading, from
    arguments that agree. -/
theorem algebraic : Cert.algebraic_KernelIdeal_ReferenceIdeal := by
  intro m ρ m' ρ' _ hagree
  refine ⟨fun c => Cert.Gcn.picked (Cert.Gcn.network Cert.Gcn.hostLayer128 Cert.Gcn.hostLayer256 Cert.Gcn.hostLayer256 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg3)),
    fun c => Cert.Gcn.padded (Cert.Gcn.network Cert.Gcn.hostLayer128 Cert.Gcn.hostLayer256 Cert.Gcn.hostLayer256 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · exact (θ_run Cert.KernelIdeal.defs _ _).mono (fun r h c =>
      ⟨(h c _ (Cert.KernelIdeal.Gen.mem_uc Cert.KernelIdeal.main_v120 (by decide))).trans (Cert.KernelIdeal.Folded.w9_v120 m ρ c),
       (h c _ (Cert.KernelIdeal.Gen.mem_uc Cert.KernelIdeal.main_v105 (by decide))).trans (Cert.KernelIdeal.Folded.w9_v105 m ρ c),
       (h c _ (Cert.KernelIdeal.Gen.mem_uc Cert.KernelIdeal.main_arg0 (by decide))).trans (Cert.KernelIdeal.Gen.W9_main_arg0 m ρ c),
       (h c _ (Cert.KernelIdeal.Gen.mem_uc Cert.KernelIdeal.main_arg1 (by decide))).trans (Cert.KernelIdeal.Gen.W9_main_arg1 m ρ c),
       (h c _ (Cert.KernelIdeal.Gen.mem_uc Cert.KernelIdeal.main_arg2 (by decide))).trans (Cert.KernelIdeal.Gen.W9_main_arg2 m ρ c),
       (h c _ (Cert.KernelIdeal.Gen.mem_uc Cert.KernelIdeal.main_arg3 (by decide))).trans (Cert.KernelIdeal.Gen.W9_main_arg3 m ρ c),
       (h c _ (Cert.KernelIdeal.Gen.mem_uc Cert.KernelIdeal.main_arg4 (by decide))).trans (Cert.KernelIdeal.Gen.W9_main_arg4 m ρ c),
       (h c _ (Cert.KernelIdeal.Gen.mem_uc Cert.KernelIdeal.main_arg5 (by decide))).trans (Cert.KernelIdeal.Gen.W9_main_arg5 m ρ c),
       (h c _ (Cert.KernelIdeal.Gen.mem_uc Cert.KernelIdeal.main_arg6 (by decide))).trans (Cert.KernelIdeal.Gen.W9_main_arg6 m ρ c),
       (h c _ (Cert.KernelIdeal.Gen.mem_uc Cert.KernelIdeal.main_arg7 (by decide))).trans (Cert.KernelIdeal.Gen.W9_main_arg7 m ρ c),
       (h c _ (Cert.KernelIdeal.Gen.mem_uc Cert.KernelIdeal.main_arg8 (by decide))).trans (Cert.KernelIdeal.Gen.W9_main_arg8 m ρ c),
       (h c _ (Cert.KernelIdeal.Gen.mem_uc Cert.KernelIdeal.main_arg9 (by decide))).trans (Cert.KernelIdeal.Gen.W9_main_arg9 m ρ c)⟩)
      (Cert.KernelIdeal.Folded.run_folded m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9⟩ := hagree c
      rw [Cert.ReferenceIdeal.Read.val_main_v132_eq, Cert.Gcn.Ref.picked_eq, Cert.Gcn.Ref.mean_network,
        h0, h1, h2, h3, h4, h5, h6, h7, h8, h9]
    · obtain ⟨h0, h1, h2, h3, h4, h5, h6, h7, h8, h9⟩ := hagree c
      rw [Cert.ReferenceIdeal.Read.val_main_v117_eq, Cert.Gcn.Ref.padded_eq, Cert.Gcn.Ref.mean_network,
        h0, h1, h2, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
